-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x2048x2048 : Shape := ⟨4, ![8, 1, 2048, 2048]⟩
abbrev S_ : Shape := ⟨0, ![]⟩

class Facts : Prop where
  bcast_S_S8x1x2048x2048 : S_.BroadcastsInDim S8x1x2048x2048 (![] : Fin 0 → Fin S8x1x2048x2048.rank)
  reducesTo_S8x1x2048x2048_S_d0_1_2_3 : S8x1x2048x2048.ReducesTo [0, 1, 2, 3] S_
  h_S_ : 0 < S_.numel

variable [Facts]

def fn {F : FTy → Type} [FloatOps F] (main_arg0 : FVec F S8x1x2048x2048 .f32) : IVec S_ 1 :=
  let main_v0 : FVec F S8x1x2048x2048 .f32 := Host.absf main_arg0
  let main_cst : FVec F S_ .f32 := constant S_ .f32 0x7F800000#32
  let main_v1 : FVec F S8x1x2048x2048 .f32 := broadcastInDim S8x1x2048x2048 ![] bcast_S_S8x1x2048x2048 main_cst
  let main_v2 : IVec S8x1x2048x2048 1 := cmpf .olt main_v0 main_v1
  let main_c : IVec S_ 1 := constantI S_ 1 1#1
  let main_v3 : IVec S_ 1 := (fun x v => Host.reduce IntOp.andi x v reducesTo_S8x1x2048x2048_S_d0_1_2_3 h_S_) main_v2 main_c
  main_v3
-- ==== Kernel.lean ====
abbrev S8x1x2048x2048 : Shape := ⟨4, ![8, 1, 2048, 2048]⟩
abbrev S_ : Shape := ⟨0, ![]⟩
abbrev S8x1x2048x2052 : Shape := ⟨4, ![8, 1, 2048, 2052]⟩
abbrev S1x1x256x2052 : Shape := ⟨4, ![1, 1, 256, 2052]⟩
abbrev S1x1x8x2052 : Shape := ⟨4, ![1, 1, 8, 2052]⟩
abbrev S1x1x256x2048 : Shape := ⟨4, ![1, 1, 256, 2048]⟩
abbrev S256x2052 : Shape := ⟨2, ![256, 2052]⟩
abbrev S8x2052 : Shape := ⟨2, ![8, 2052]⟩
abbrev S2x2052 : Shape := ⟨2, ![2, 2052]⟩
abbrev S260x2052 : Shape := ⟨2, ![260, 2052]⟩
abbrev S256x2048 : Shape := ⟨2, ![256, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8x1x2048x2048, .f32⟩
  | .hbm, ⟨1, _⟩ => ⟨S_, .f32⟩
  | .hbm, ⟨2, _⟩ => ⟨S_, .f32⟩
  | .hbm, ⟨3, _⟩ => ⟨S8x1x2048x2052, .f32⟩
  | .hbm, ⟨4, _⟩ => ⟨S8x1x2048x2048, .f32⟩
  | .local _ .vmem, ⟨0, _⟩ => ⟨S1x1x256x2052, .f32⟩
  | .local _ .vmem, ⟨1, _⟩ => ⟨S1x1x256x2052, .f32⟩
  | .local _ .vmem, ⟨2, _⟩ => ⟨S1x1x8x2052, .f32⟩
  | .local _ .vmem, ⟨3, _⟩ => ⟨S1x1x8x2052, .f32⟩
  | .local _ .vmem, ⟨4, _⟩ => ⟨S1x1x8x2052, .f32⟩
  | .local _ .vmem, ⟨5, _⟩ => ⟨S1x1x8x2052, .f32⟩
  | .local _ .vmem, ⟨6, _⟩ => ⟨S1x1x256x2048, .f32⟩
  | .local _ .vmem, ⟨7, _⟩ => ⟨S1x1x256x2048, .f32⟩
  | _, _ => ⟨S8x1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![arg0.toNat, c0_i32.toNat, v2.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x256x2052 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x2052 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x2052 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S8x1x2048x2048_S8x1x2048x2052_000_000_000_220 : S8x1x2048x2048.Pads (![0, 0, 0, 2] : Fin 4 → Nat) ![0, 0, 0, 2] ![0, 0, 0, 0] S8x1x2048x2052
  h_S_ : 0 < S_.numel
  inb_S1x1x256x2052_S1x1x256x2052_0_0_0_0 : ∀ a, (![0, 0, 0, 0] : Fin 4 → Nat) a + S1x1x256x2052.size a ≤ S1x1x256x2052.size a
  h_S1x1x256x2052 : 0 < S1x1x256x2052.numel
  shapeCasts_S1x1x256x2052_S256x2052 : S1x1x256x2052.ShapeCasts S256x2052
  inb_S1x1x8x2052_S1x1x8x2052_0_0_0_0 : ∀ a, (![0, 0, 0, 0] : Fin 4 → Nat) a + S1x1x8x2052.size a ≤ S1x1x8x2052.size a
  h_S1x1x8x2052 : 0 < S1x1x8x2052.numel
  shapeCasts_S1x1x8x2052_S8x2052 : S1x1x8x2052.ShapeCasts S8x2052
  slices_S8x2052_o6_0_S2x2052 : S8x2052.Slices ![6, 0] S2x2052
  slices_S8x2052_o0_0_S2x2052 : S8x2052.Slices ![0, 0] S2x2052
  concatenates_S2x2052_S256x2052_S2x2052_S260x2052_d0 : Shape.Concatenates [S2x2052, S256x2052, S2x2052] S260x2052 0
  iota_S260x2052_d0_w32 : S260x2052.Iotas .tc 32 [0]
  iota_S260x2052_d1_w32 : S260x2052.Iotas .tc 32 [1]
  slices_S260x2052_o0_2_S256x2048 : S260x2052.Slices ![0, 2] S256x2048
  slices_S260x2052_o1_0_S256x2048 : S260x2052.Slices ![1, 0] S256x2048
  slices_S260x2052_o1_1_S256x2048 : S260x2052.Slices ![1, 1] S256x2048
  slices_S260x2052_o1_2_S256x2048 : S260x2052.Slices ![1, 2] S256x2048
  slices_S260x2052_o1_3_S256x2048 : S260x2052.Slices ![1, 3] S256x2048
  slices_S260x2052_o1_4_S256x2048 : S260x2052.Slices ![1, 4] S256x2048
  slices_S260x2052_o2_0_S256x2048 : S260x2052.Slices ![2, 0] S256x2048
  slices_S260x2052_o2_1_S256x2048 : S260x2052.Slices ![2, 1] S256x2048
  slices_S260x2052_o2_2_S256x2048 : S260x2052.Slices ![2, 2] S256x2048
  slices_S260x2052_o2_3_S256x2048 : S260x2052.Slices ![2, 3] S256x2048
  slices_S260x2052_o2_4_S256x2048 : S260x2052.Slices ![2, 4] S256x2048
  slices_S260x2052_o3_0_S256x2048 : S260x2052.Slices ![3, 0] S256x2048
  slices_S260x2052_o3_1_S256x2048 : S260x2052.Slices ![3, 1] S256x2048
  slices_S260x2052_o3_2_S256x2048 : S260x2052.Slices ![3, 2] S256x2048
  slices_S260x2052_o3_3_S256x2048 : S260x2052.Slices ![3, 3] S256x2048
  slices_S260x2052_o3_4_S256x2048 : S260x2052.Slices ![3, 4] S256x2048
  slices_S260x2052_o4_2_S256x2048 : S260x2052.Slices ![4, 2] S256x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x2052.size a ≤ S8x1x2048x2052.size a
  hwx0_0 : ∀ i : grid0.Coords, EltTy.bits .f32 = 32 ∨ (Rect.block (s := S8x1x2048x2052) S1x1x256x2052.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8x2052.size a ≤ S8x1x2048x2052.size a
  hwx0_1 : ∀ i : grid0.Coords, EltTy.bits .f32 = 32 ∨ (Rect.block (s := S8x1x2048x2052) S1x1x8x2052.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8x2052.size a ≤ S8x1x2048x2052.size a
  hwx0_2 : ∀ i : grid0.Coords, EltTy.bits .f32 = 32 ∨ (Rect.block (s := S8x1x2048x2052) S1x1x8x2052.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S8x1x2048x2048.size a
  hwx0_3 : ∀ i : grid0.Coords, EltTy.bits .f32 = 32 ∨ (Rect.block (s := S8x1x2048x2048) S1x1x256x2048.size (cc0_transform_3 i) (hinb0_3 i)).WholeWords (EltTy.packing .f32)

variable [Facts₀]

abbrev win0_0 : Pipeline.Window sig grid0 :=
  Pipeline.Window.ofSpec (Memref.whole main_v0) S1x1x256x2052.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x8x2052.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x8x2052.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1x2048x2048 : Shape := ⟨4, ![8, 1, 2048, 2048]⟩
abbrev S_ : Shape := ⟨0, ![]⟩
abbrev S8x1x2052x2052 : Shape := ⟨4, ![8, 1, 2052, 2052]⟩

abbrev nBuf : Space → Nat
  | .hbm => 91
  | .vmem => 0
  | .smem => 0
  | _ => 0

abbrev bufTy : (tb : Table) → Fin (tcTables nBuf tb) → BufTy
  | .hbm, ⟨0, _⟩ => ⟨S8x1x2048x2048, .f32⟩
  | .hbm, ⟨1, _⟩ => ⟨S8x1x2048x2048, .f32⟩
  | .hbm, ⟨2, _⟩ => ⟨S8x1x2048x2048, .f32⟩
  | .hbm, ⟨3, _⟩ => ⟨S_, .f32⟩
  | .hbm, ⟨4, _⟩ => ⟨S8x1x2048x2048, .f32⟩
  | .hbm, ⟨5, _⟩ => ⟨S8x1x2048x2048, .f32⟩
  | .hbm, ⟨6, _⟩ => ⟨S_, .f32⟩
  | .hbm, ⟨7, _⟩ => ⟨S8x1x2048x2048, .f32⟩
  | .hbm, ⟨8, _⟩ => ⟨S8x1x2048x2048, .f32⟩
  | .hbm, ⟨9, _⟩ => ⟨S_, .f32⟩
  | .hbm, ⟨10, _⟩ => ⟨S_, .f32⟩
  | .hbm, ⟨11, _⟩ => ⟨S8x1x2052x2052, .f32⟩
  | .hbm, ⟨12, _⟩ => ⟨S8x1x2048x2048, .f32⟩
  | .hbm, ⟨13, _⟩ => ⟨S8x1x2048x2048, .f32⟩
  | .hbm, ⟨14, _⟩ => ⟨S8x1x2048x2048, .f32⟩
  | .hbm, ⟨15, _⟩ => ⟨S8x1x2048x2048, .f32⟩
  | .hbm, ⟨16, _⟩ => ⟨S8x1x2048x2048, .f32⟩
  | .hbm, ⟨17, _⟩ => ⟨S8x1x2048x2048, .f32⟩
  | .hbm, ⟨18, _⟩ => ⟨S8x1x2048x2048, .f32⟩
  | .hbm, ⟨19, _⟩ => ⟨S8x1x2048x2048, .f32⟩
  | .hbm, ⟨20, _⟩ => ⟨S8x1x2048x2048, .f32⟩
  | .hbm, ⟨21, _⟩ => ⟨S8x1x2048x2048, .f32⟩
  | .hbm, ⟨22, _⟩ => ⟨S8x1x2048x2048, .f32⟩
  | .hbm, ⟨23, _⟩ => ⟨S8x1x2048x2048, .f32⟩
  | .hbm, ⟨24, _⟩ => ⟨S8x1x2048x2048, .f32⟩
  | .hbm, ⟨25, _⟩ => ⟨S8x1x2048x2048, .f32⟩
  | .hbm, ⟨26, _⟩ => ⟨S8x1x2048x2048, .f32⟩
  | .hbm, ⟨27, _⟩ => ⟨S8x1x2048x2048, .f32⟩
  | .hbm, ⟨28, _⟩ => ⟨S8x1x2048x2048, .f32⟩
  | .hbm, ⟨29, _⟩ => ⟨S8x1x2048x2048, .f32⟩
  | .hbm, ⟨30, _⟩ => ⟨S8x1x2048x2048, .f32⟩
  | .hbm, ⟨31, _⟩ => ⟨S8x1x2048x2048, .f32⟩
  | .hbm, ⟨32, _⟩ => ⟨S8x1x2048x2048, .f32⟩
  | .hbm, ⟨33, _⟩ => ⟨S8x1x2048x2048, .f32⟩
  | .hbm, ⟨34, _⟩ => ⟨S8x1x2048x2048, .f32⟩
  | .hbm, ⟨35, _⟩ => ⟨S8x1x2048x2048, .f32⟩
  | .hbm, ⟨36, _⟩ => ⟨S8x1x2048x2048, .f32⟩
  | .hbm, ⟨37, _⟩ => ⟨S8x1x2048x2048, .f32⟩
  | .hbm, ⟨38, _⟩ => ⟨S8x1x2048x2048, .f32⟩
  | .hbm, ⟨39, _⟩ => ⟨S8x1x2048x2048, .f32⟩
  | .hbm, ⟨40, _⟩ => ⟨S8x1x2048x2048, .f32⟩
  | .hbm, ⟨41, _⟩ => ⟨S8x1x2048x2048, .f32⟩
  | .hbm, ⟨42, _⟩ => ⟨S8x1x2048x2048, .f32⟩
  | .hbm, ⟨43, _⟩ => ⟨S8x1x2048x2048, .f32⟩
  | .hbm, ⟨44, _⟩ => ⟨S8x1x2048x2048, .f32⟩
  | .hbm, ⟨45, _⟩ => ⟨S_, .f32⟩
  | .hbm, ⟨46, _⟩ => ⟨S_, .f32⟩
  | .hbm, ⟨47, _⟩ => ⟨S8x1x2052x2052, .f32⟩
  | .hbm, ⟨48, _⟩ => ⟨S8x1x2048x2048, .f32⟩
  | .hbm, ⟨49, _⟩ => ⟨S8x1x2048x2048, .f32⟩
  | .hbm, ⟨50, _⟩ => ⟨S8x1x2048x2048, .f32⟩
  | .hbm, ⟨51, _⟩ => ⟨S8x1x2048x2048, .f32⟩
  | .hbm, ⟨52, _⟩ => ⟨S8x1x2048x2048, .f32⟩
  | .hbm, ⟨53, _⟩ => ⟨S8x1x2048x2048, .f32⟩
  | .hbm, ⟨54, _⟩ => ⟨S8x1x2048x2048, .f32⟩
  | .hbm, ⟨55, _⟩ => ⟨S8x1x2048x2048, .f32⟩
  | .hbm, ⟨56, _⟩ => ⟨S8x1x2048x2048, .f32⟩
  | .hbm, ⟨57, _⟩ => ⟨S8x1x2048x2048, .f32⟩
  | .hbm, ⟨58, _⟩ => ⟨S8x1x2048x2048, .f32⟩
  | .hbm, ⟨59, _⟩ => ⟨S8x1x2048x2048, .f32⟩
  | .hbm, ⟨60, _⟩ => ⟨S8x1x2048x2048, .f32⟩
  | .hbm, ⟨61, _⟩ => ⟨S8x1x2048x2048, .f32⟩
  | .hbm, ⟨62, _⟩ => ⟨S8x1x2048x2048, .f32⟩
  | .hbm, ⟨63, _⟩ => ⟨S8x1x2048x2048, .f32⟩
  | .hbm, ⟨64, _⟩ => ⟨S8x1x2048x2048, .f32⟩
  | .hbm, ⟨65, _⟩ => ⟨S8x1x2048x2048, .f32⟩
  | .hbm, ⟨66, _⟩ => ⟨S8x1x2048x2048, .f32⟩
  | .hbm, ⟨67, _⟩ => ⟨S8x1x2048x2048, .f32⟩
  | .hbm, ⟨68, _⟩ => ⟨S8x1x2048x2048, .f32⟩
  | .hbm, ⟨69, _⟩ => ⟨S8x1x2048x2048, .f32⟩
  | .hbm, ⟨70, _⟩ => ⟨S8x1x2048x2048, .f32⟩
  | .hbm, ⟨71, _⟩ => ⟨S8x1x2048x2048, .f32⟩
  | .hbm, ⟨72, _⟩ => ⟨S8x1x2048x2048, .f32⟩
  | .hbm, ⟨73, _⟩ => ⟨S8x1x2048x2048, .f32⟩
  | .hbm, ⟨74, _⟩ => ⟨S8x1x2048x2048, .f32⟩
  | .hbm, ⟨75, _⟩ => ⟨S8x1x2048x2048, .f32⟩
  | .hbm, ⟨76, _⟩ => ⟨S8x1x2048x2048, .f32⟩
  | .hbm, ⟨77, _⟩ => ⟨S8x1x2048x2048, .f32⟩
  | .hbm, ⟨78, _⟩ => ⟨S8x1x2048x2048, .f32⟩
  | .hbm, ⟨79, _⟩ => ⟨S8x1x2048x2048, .f32⟩
  | .hbm, ⟨80, _⟩ => ⟨S8x1x2048x2048, .f32⟩
  | .hbm, ⟨81, _⟩ => ⟨S8x1x2048x2048, .f32⟩
  | .hbm, ⟨82, _⟩ => ⟨S_, .f32⟩
  | .hbm, ⟨83, _⟩ => ⟨S8x1x2048x2048, .f32⟩
  | .hbm, ⟨84, _⟩ => ⟨S8x1x2048x2048, .i1⟩
  | .hbm, ⟨85, _⟩ => ⟨S_, .f32⟩
  | .hbm, ⟨86, _⟩ => ⟨S_, .f32⟩
  | .hbm, ⟨87, _⟩ => ⟨S8x1x2048x2048, .f32⟩
  | .hbm, ⟨88, _⟩ => ⟨S8x1x2048x2048, .f32⟩
  | .hbm, ⟨89, _⟩ => ⟨S8x1x2048x2048, .f32⟩
  | .hbm, ⟨90, _⟩ => ⟨S8x1x2048x2048, .f32⟩
  | _, _ => ⟨S8x1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_call1_v0 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_cst_3 : Ref sig .tc := ⟨.hbm, 82, rfl⟩
abbrev main_v75 : Ref sig .tc := ⟨.hbm, 83, rfl⟩
abbrev main_v76 : Ref sig .tc := ⟨.hbm, 84, rfl⟩
abbrev main_cst_4 : Ref sig .tc := ⟨.hbm, 85, rfl⟩
abbrev main_cst_5 : Ref sig .tc := ⟨.hbm, 86, rfl⟩
abbrev main_call2_v0 : Ref sig .tc := ⟨.hbm, 87, rfl⟩
abbrev main_call2_v1 : Ref sig .tc := ⟨.hbm, 88, rfl⟩
abbrev main_v77 : Ref sig .tc := ⟨.hbm, 89, rfl⟩
abbrev main_v78 : Ref sig .tc := ⟨.hbm, 90, rfl⟩

abbrev nD : Nat := 1
abbrev τ : Topo := Topo.v7x

variable {F : FTy → Type} [FloatOps F]

class Facts₀ : Prop where
  bcast_S_S8x1x2048x2048 : S_.BroadcastsInDim S8x1x2048x2048 (![] : Fin 0 → Fin S8x1x2048x2048.rank)
  pads_S8x1x2048x2048_S8x1x2052x2052_000_000_220_220 : S8x1x2048x2048.Pads (![0, 0, 2, 2] : Fin 4 → Nat) ![0, 0, 2, 2] ![0, 0, 0, 0] S8x1x2052x2052
  h_S_ : 0 < S_.numel
  slices_S8x1x2052x2052_S8x1x2048x2048_0_0_0_2 : S8x1x2052x2052.Slices ![0, 0, 0, 2] S8x1x2048x2048
  slices_S8x1x2052x2052_S8x1x2048x2048_0_0_1_0 : S8x1x2052x2052.Slices ![0, 0, 1, 0] S8x1x2048x2048
  slices_S8x1x2052x2052_S8x1x2048x2048_0_0_1_1 : S8x1x2052x2052.Slices ![0, 0, 1, 1] S8x1x2048x2048
  slices_S8x1x2052x2052_S8x1x2048x2048_0_0_1_2 : S8x1x2052x2052.Slices ![0, 0, 1, 2] S8x1x2048x2048
  slices_S8x1x2052x2052_S8x1x2048x2048_0_0_1_3 : S8x1x2052x2052.Slices ![0, 0, 1, 3] S8x1x2048x2048
  slices_S8x1x2052x2052_S8x1x2048x2048_0_0_1_4 : S8x1x2052x2052.Slices ![0, 0, 1, 4] S8x1x2048x2048
  slices_S8x1x2052x2052_S8x1x2048x2048_0_0_2_0 : S8x1x2052x2052.Slices ![0, 0, 2, 0] S8x1x2048x2048
  slices_S8x1x2052x2052_S8x1x2048x2048_0_0_2_1 : S8x1x2052x2052.Slices ![0, 0, 2, 1] S8x1x2048x2048
  slices_S8x1x2052x2052_S8x1x2048x2048_0_0_2_2 : S8x1x2052x2052.Slices ![0, 0, 2, 2] S8x1x2048x2048
  slices_S8x1x2052x2052_S8x1x2048x2048_0_0_2_3 : S8x1x2052x2052.Slices ![0, 0, 2, 3] S8x1x2048x2048
  slices_S8x1x2052x2052_S8x1x2048x2048_0_0_2_4 : S8x1x2052x2052.Slices ![0, 0, 2, 4] S8x1x2048x2048
  slices_S8x1x2052x2052_S8x1x2048x2048_0_0_3_0 : S8x1x2052x2052.Slices ![0, 0, 3, 0] S8x1x2048x2048
  slices_S8x1x2052x2052_S8x1x2048x2048_0_0_3_1 : S8x1x2052x2052.Slices ![0, 0, 3, 1] S8x1x2048x2048
  slices_S8x1x2052x2052_S8x1x2048x2048_0_0_3_2 : S8x1x2052x2052.Slices ![0, 0, 3, 2] S8x1x2048x2048
  slices_S8x1x2052x2052_S8x1x2048x2048_0_0_3_3 : S8x1x2052x2052.Slices ![0, 0, 3, 3] S8x1x2048x2048
  slices_S8x1x2052x2052_S8x1x2048x2048_0_0_3_4 : S8x1x2052x2052.Slices ![0, 0, 3, 4] S8x1x2048x2048
  slices_S8x1x2052x2052_S8x1x2048x2048_0_0_4_2 : S8x1x2052x2052.Slices ![0, 0, 4, 2] S8x1x2048x2048

variable [Facts₀]

class Facts : Prop extends Facts₀ where

variable [Facts]
-- ==== Proof.KernelBody.lean ====
/-
  The run of the padded, pipelined kernel: it terminates, faults nowhere, leaves the argument image unchanged, and
  leaves in the result array, block by block, what the body stores.

  The kernel is launched on an 8 × 8 grid (plane, band of 256 rows). Three of its windows read ONE array — the image
  padded by two zero columns on each side — at different blocks: the band itself (256 rows), the 8-row strip that ends
  just above it and the 8-row strip that starts just below it (the strips clamped at the image's first and last
  strip). The array's ownership is therefore dealt among the three windows in three fractions that add up to the
  whole; the fourth window writes the result, one 256-row band per grid point. The body reads its three input
  buffers, recomputes nothing it keeps, and overwrites the whole output buffer: what it leaves there is one pure
  function (`outBlock`) of the three input blocks and the grid point.
-/
import proofs.«119502_j48601849922239_1_alg».proof.Proof.Gen.Kernel.Launch
import proofs.«119502_j48601849922239_1_alg».proof.Proof.Gen.Kernel.Skeleton
import proofs.«119502_j48601849922239_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- The buffers' contents when the kernel is launched: the launch memory after the zero constant and the padding. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program is the two stretches of host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the argument image. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's buffer holds its block at every point, whether or not the block was fetched there: the body
    leaves the inputs in place, and an unfetched block is the previous point's. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

abbrev rBand : Rect S1x1x256x2052 := Rect.unit (s := S1x1x256x2052) ![0, 0, 0, 0] S1x1x256x2052.size inb_S1x1x256x2052_S1x1x256x2052_0_0_0_0
abbrev rStrip : Rect S1x1x8x2052 := Rect.unit (s := S1x1x8x2052) ![0, 0, 0, 0] S1x1x8x2052.size inb_S1x1x8x2052_S1x1x8x2052_0_0_0_0
abbrev rOut : Rect S1x1x256x2048 := Rect.unit (s := S1x1x256x2048) ![0, 0, 0, 0] S1x1x256x2048.size inb_S1x1x256x2048_S1x1x256x2048_0_0_0_0

/-- The value the body stores, from the band `v0`, the strip above `v2` and the strip below `v4` at grid point `i`:
    the dilation and the erosion accumulated tap by tap, their difference thresholded. -/
def payload (i : grid0.Coords) (v0 : Vec F S1x1x256x2052 .f32) (v2 : Vec F S1x1x8x2052 .f32) (v4 : Vec F S1x1x8x2052 .f32) : FVec F S1x1x256x2048 .f32 :=
  k0_pay1 (k0_pay5 i v0 v2 v4) (k0_pay9 (k0_pay4 i v0 v2 v4) (k0_pay6 i v0 v2 v4) (k0_pay8 i v0 v2 v4))
    (k0_pay10 (k0_pay5 i v0 v2 v4) (k0_pay7 i v0 v2 v4)) (k0_pay11 (k0_pay4 i v0 v2 v4))

/-- The output buffer after the body: its one store, which covers the buffer. -/
def outBlock (i : grid0.Coords) (x0 : Vec F S1x1x256x2052 .f32) (x1 : Vec F S1x1x8x2052 .f32) (x2 : Vec F S1x1x8x2052 .f32) : Vec F S1x1x256x2048 .f32 :=
  View.canon [⟨rOut, payload i (View.ld x0 rBand) (View.ld x1 rStrip) (View.ld x2 rStrip)⟩]

theorem coverOut (p0 : Vec F S1x1x256x2048 .f32) (y : S1x1x256x2048.Idx) :
    ∃ pc ∈ ([⟨rOut, p0⟩] : List (View.Piece (Elt F) S1x1x256x2048 .f32)), y ∈ pc.1.set :=
  View.cover_of_tiled [⟨rOut, p0⟩] S1x1x256x2048.size (by rfl) y

/-! ## The body's triple -/

set_option maxHeartbeats 4000000 in
/-- On whole buffers, the inputs at `x0`, `x1`, `x2` and the output at anything, the body runs to the end with the inputs
    as they were and the output at `outBlock`. -/
theorem sound_kernel (c : Dev nD) (E : Set ℕ) (i : grid0.Coords)
    (arg2 : Memref sig .tc .vmem S1x1x256x2052 .f32) (harg2 : arg2.IsWhole) (arg3 : Memref sig .tc .vmem S1x1x8x2052 .f32) (harg3 : arg3.IsWhole)
    (arg4 : Memref sig .tc .vmem S1x1x8x2052 .f32) (harg4 : arg4.IsWhole) (arg5 : Memref sig .tc .vmem S1x1x256x2048 .f32) (harg5 : arg5.IsWhole)
    (x0 : Vec F S1x1x256x2052 .f32) (x1 : Vec F S1x1x8x2052 .f32) (x2 : Vec F S1x1x8x2052 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock i x0 x1 x2)) -∗ K ⟨⟩))
      ⊢ wp frame (wpE (defs₀ (F := F)) Variants.none c none) E (cc0__transition_kernel i arg2 harg2 arg3 harg3 arg4 harg4 arg5 harg5) K := by
  simp only [cc0__transition_kernel_eq_skeleton]; unfold cc0__transition_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

end Cert.Kernel.Hand

end
-- ==== Proof.KernelRun.lean ====
/-
  The launch of the kernel: the proof data of its pipeline, the body's obligation at every grid point, how the padded
  array's ownership is dealt among the three windows that read it, and the run.

  After the run the result array holds, band by band, what the body left at each grid point, and every buffer that is no
  window's array — the argument image among them — holds what it held when the kernel was launched.
-/
import proofs.«119502_j48601849922239_1_alg».proof.Proof.KernelBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's data on core `c`: the arrays as launched; after the body each input buffer at its block and the output
    buffer at `outBlock` of the three input blocks; the invariant the core's remaining scoped buffers; the padded
    array held in three fractions, a half and two quarters, one per window reading it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (grid0.coords t) (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
  owed _ := 0

theorem Phi_eq (c : Dev nD) (t : Fin (cfg0.N + 1)) : (dats m 0 c).Φ t
    = Pipeline.scopedRest (Ix := Unit) (Name := ℕ) (U := UR sig nD τ) (Lvl := ℕ) (Val := Elt F) spec0 c := by
  dsimp only [dats]

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (grid0.coords t) (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any grid point the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The padded array dealt among its three windows -/

/-- Before any write-back each window's array is as launched. -/
theorem arrAt_zero (c : Dev nD) (w : Fin cfg0.W) : (dats m 0 c).arrAt w 0 = V m c (Pipeline.arrRef spec0 w) :=
  A_eq m c w

theorem share0 (c : Dev nD) : (dats m 0 c).share 0 = fullShare.left := by unfold Dat.share; rfl
theorem share1 (c : Dev nD) : (dats m 0 c).share 1 = fullShare.right.left := by unfold Dat.share; rfl
theorem share2 (c : Dev nD) : (dats m 0 c).share 2 = fullShare.right.right := by unfold Dat.share; rfl
theorem share3 (c : Dev nD) : (dats m 0 c).share 3 = fullShare := by unfold Dat.share; rfl

/-- The two buffers behind the four windows' arrays, each whole, are the windows' arrays at the launch contents: the
    padded array's full ownership is a half and two quarters. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v0, main_v1] (by decide) (by decide), bigSep_W0]
  simp only [bigSepL_cons_cons, bigSepL_singleton]
  rw [(arr_whole0 0).set_eq_univ, (arr_whole0 3).set_eq_univ, share0, share1, share2, share3, arrAt_zero, arrAt_zero, arrAt_zero, arrAt_zero]
  show iprop((((c.tc : Thread nD τ).loc main_v0) ↦{fullShare} V m c main_v0) ∗ (((c.tc : Thread nD τ).loc main_v1) ↦{fullShare} V m c main_v1))
    ⊢ iprop((((c.tc : Thread nD τ).loc main_v0) ↦{fullShare.left} V m c main_v0) ∗ (((c.tc : Thread nD τ).loc main_v0) ↦{fullShare.right.left} V m c main_v0)
        ∗ (((c.tc : Thread nD τ).loc main_v0) ↦{fullShare.right.right} V m c main_v0) ∗ (((c.tc : Thread nD τ).loc main_v1) ↦{fullShare} V m c main_v1))
  iintro ⟨Ha, Hb⟩
  icases (pointsTo_share (PosShare.mem_left_op_right fullShare)).1 $$ Ha with ⟨Ha0, Ha12⟩
  icases (pointsTo_share (PosShare.mem_left_op_right fullShare.right)).1 $$ Ha12 with ⟨Ha1, Ha2⟩
  isplitl [Ha0]; · iexact Ha0
  isplitl [Ha1]; · iexact Ha1
  isplitl [Ha2]; · iexact Ha2
  iexact Hb

/-! ## The run -/

set_option backward.isDefEq.respectTransparency.types false in
/-- Every weakly fair execution of the program terminates without a fault; at the end each window's array holds what
    the write-backs left (the padded array its launch contents, the result array the body's blocks), and every other
    unscoped buffer what it held at the launch. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Phi_eq]
      iintro ⟨-, H⟩
      iexact H)
    (hout := fun c => by
      rw [Phi_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The argument image bypasses the launch: it is no window's array. -/
theorem main_arg0_rest : main_arg0 ∈ Pipeline.restRefs sig spec0 :=
  Pipeline.mem_restRefs_of main_arg0 rfl (by decide)

/-- The program runs to the end, faults nowhere and leaves the argument image as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 main_arg0_rest).trans (V_main_arg0 m c)) (run_main m ρ)

end Cert.Kernel.Hand

end
-- ==== Proof.KernelIdealBody.lean ====
/-
  The run of the padded, pipelined kernel: it terminates, faults nowhere, leaves the argument image unchanged, and
  leaves in the result array, block by block, what the body stores.

  The kernel is launched on an 8 × 8 grid (plane, band of 256 rows). Three of its windows read ONE array — the image
  padded by two zero columns on each side — at different blocks: the band itself (256 rows), the 8-row strip that ends
  just above it and the 8-row strip that starts just below it (the strips clamped at the image's first and last
  strip). The array's ownership is therefore dealt among the three windows in three fractions that add up to the
  whole; the fourth window writes the result, one 256-row band per grid point. The body reads its three input
  buffers, recomputes nothing it keeps, and overwrites the whole output buffer: what it leaves there is one pure
  function (`outBlock`) of the three input blocks and the grid point.
-/
import proofs.«119502_j48601849922239_1_alg».proof.Proof.Gen.KernelIdeal.Launch
import proofs.«119502_j48601849922239_1_alg».proof.Proof.Gen.KernelIdeal.Skeleton
import proofs.«119502_j48601849922239_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- The buffers' contents when the kernel is launched: the launch memory after the zero constant and the padding. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program is the two stretches of host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the argument image. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's buffer holds its block at every point, whether or not the block was fetched there: the body
    leaves the inputs in place, and an unfetched block is the previous point's. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

abbrev rBand : Rect S1x1x256x2052 := Rect.unit (s := S1x1x256x2052) ![0, 0, 0, 0] S1x1x256x2052.size inb_S1x1x256x2052_S1x1x256x2052_0_0_0_0
abbrev rStrip : Rect S1x1x8x2052 := Rect.unit (s := S1x1x8x2052) ![0, 0, 0, 0] S1x1x8x2052.size inb_S1x1x8x2052_S1x1x8x2052_0_0_0_0
abbrev rOut : Rect S1x1x256x2048 := Rect.unit (s := S1x1x256x2048) ![0, 0, 0, 0] S1x1x256x2048.size inb_S1x1x256x2048_S1x1x256x2048_0_0_0_0

/-- The value the body stores, from the band `v0`, the strip above `v2` and the strip below `v4` at grid point `i`:
    the dilation and the erosion accumulated tap by tap, their difference thresholded. -/
def payload (i : grid0.Coords) (v0 : Vec F S1x1x256x2052 .f32) (v2 : Vec F S1x1x8x2052 .f32) (v4 : Vec F S1x1x8x2052 .f32) : FVec F S1x1x256x2048 .f32 :=
  k0_pay1 (k0_pay5 i v0 v2 v4) (k0_pay9 (k0_pay4 i v0 v2 v4) (k0_pay6 i v0 v2 v4) (k0_pay8 i v0 v2 v4))
    (k0_pay10 (k0_pay5 i v0 v2 v4) (k0_pay7 i v0 v2 v4)) (k0_pay11 (k0_pay4 i v0 v2 v4))

/-- The output buffer after the body: its one store, which covers the buffer. -/
def outBlock (i : grid0.Coords) (x0 : Vec F S1x1x256x2052 .f32) (x1 : Vec F S1x1x8x2052 .f32) (x2 : Vec F S1x1x8x2052 .f32) : Vec F S1x1x256x2048 .f32 :=
  View.canon [⟨rOut, payload i (View.ld x0 rBand) (View.ld x1 rStrip) (View.ld x2 rStrip)⟩]

theorem coverOut (p0 : Vec F S1x1x256x2048 .f32) (y : S1x1x256x2048.Idx) :
    ∃ pc ∈ ([⟨rOut, p0⟩] : List (View.Piece (Elt F) S1x1x256x2048 .f32)), y ∈ pc.1.set :=
  View.cover_of_tiled [⟨rOut, p0⟩] S1x1x256x2048.size (by rfl) y

/-! ## The body's triple -/

set_option maxHeartbeats 4000000 in
/-- On whole buffers, the inputs at `x0`, `x1`, `x2` and the output at anything, the body runs to the end with the inputs
    as they were and the output at `outBlock`. -/
theorem sound_kernel (c : Dev nD) (E : Set ℕ) (i : grid0.Coords)
    (arg2 : Memref sig .tc .vmem S1x1x256x2052 .f32) (harg2 : arg2.IsWhole) (arg3 : Memref sig .tc .vmem S1x1x8x2052 .f32) (harg3 : arg3.IsWhole)
    (arg4 : Memref sig .tc .vmem S1x1x8x2052 .f32) (harg4 : arg4.IsWhole) (arg5 : Memref sig .tc .vmem S1x1x256x2048 .f32) (harg5 : arg5.IsWhole)
    (x0 : Vec F S1x1x256x2052 .f32) (x1 : Vec F S1x1x8x2052 .f32) (x2 : Vec F S1x1x8x2052 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock i x0 x1 x2)) -∗ K ⟨⟩))
      ⊢ wp frame (wpE (defs₀ (F := F)) Variants.none c none) E (cc0__transition_kernel i arg2 harg2 arg3 harg3 arg4 harg4 arg5 harg5) K := by
  simp only [cc0__transition_kernel_eq_skeleton]; unfold cc0__transition_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

end Cert.KernelIdeal.Hand

end
-- ==== Proof.KernelIdealRun.lean ====
/-
  The launch of the kernel: the proof data of its pipeline, the body's obligation at every grid point, how the padded
  array's ownership is dealt among the three windows that read it, and the run.

  After the run the result array holds, band by band, what the body left at each grid point, and every buffer that is no
  window's array — the argument image among them — holds what it held when the kernel was launched.
-/
import proofs.«119502_j48601849922239_1_alg».proof.Proof.KernelIdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's data on core `c`: the arrays as launched; after the body each input buffer at its block and the output
    buffer at `outBlock` of the three input blocks; the invariant the core's remaining scoped buffers; the padded
    array held in three fractions, a half and two quarters, one per window reading it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (grid0.coords t) (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
  owed _ := 0

theorem Phi_eq (c : Dev nD) (t : Fin (cfg0.N + 1)) : (dats m 0 c).Φ t
    = Pipeline.scopedRest (Ix := Unit) (Name := ℕ) (U := UR sig nD τ) (Lvl := ℕ) (Val := Elt F) spec0 c := by
  dsimp only [dats]

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (grid0.coords t) (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any grid point the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The padded array dealt among its three windows -/

/-- Before any write-back each window's array is as launched. -/
theorem arrAt_zero (c : Dev nD) (w : Fin cfg0.W) : (dats m 0 c).arrAt w 0 = V m c (Pipeline.arrRef spec0 w) :=
  A_eq m c w

theorem share0 (c : Dev nD) : (dats m 0 c).share 0 = fullShare.left := by unfold Dat.share; rfl
theorem share1 (c : Dev nD) : (dats m 0 c).share 1 = fullShare.right.left := by unfold Dat.share; rfl
theorem share2 (c : Dev nD) : (dats m 0 c).share 2 = fullShare.right.right := by unfold Dat.share; rfl
theorem share3 (c : Dev nD) : (dats m 0 c).share 3 = fullShare := by unfold Dat.share; rfl

/-- The two buffers behind the four windows' arrays, each whole, are the windows' arrays at the launch contents: the
    padded array's full ownership is a half and two quarters. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v0, main_v1] (by decide) (by decide), bigSep_W0]
  simp only [bigSepL_cons_cons, bigSepL_singleton]
  rw [(arr_whole0 0).set_eq_univ, (arr_whole0 3).set_eq_univ, share0, share1, share2, share3, arrAt_zero, arrAt_zero, arrAt_zero, arrAt_zero]
  show iprop((((c.tc : Thread nD τ).loc main_v0) ↦{fullShare} V m c main_v0) ∗ (((c.tc : Thread nD τ).loc main_v1) ↦{fullShare} V m c main_v1))
    ⊢ iprop((((c.tc : Thread nD τ).loc main_v0) ↦{fullShare.left} V m c main_v0) ∗ (((c.tc : Thread nD τ).loc main_v0) ↦{fullShare.right.left} V m c main_v0)
        ∗ (((c.tc : Thread nD τ).loc main_v0) ↦{fullShare.right.right} V m c main_v0) ∗ (((c.tc : Thread nD τ).loc main_v1) ↦{fullShare} V m c main_v1))
  iintro ⟨Ha, Hb⟩
  icases (pointsTo_share (PosShare.mem_left_op_right fullShare)).1 $$ Ha with ⟨Ha0, Ha12⟩
  icases (pointsTo_share (PosShare.mem_left_op_right fullShare.right)).1 $$ Ha12 with ⟨Ha1, Ha2⟩
  isplitl [Ha0]; · iexact Ha0
  isplitl [Ha1]; · iexact Ha1
  isplitl [Ha2]; · iexact Ha2
  iexact Hb

/-! ## The run -/

set_option backward.isDefEq.respectTransparency.types false in
/-- Every weakly fair execution of the program terminates without a fault; at the end each window's array holds what
    the write-backs left (the padded array its launch contents, the result array the body's blocks), and every other
    unscoped buffer what it held at the launch. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Phi_eq]
      iintro ⟨-, H⟩
      iexact H)
    (hout := fun c => by
      rw [Phi_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The argument image bypasses the launch: it is no window's array. -/
theorem main_arg0_rest : main_arg0 ∈ Pipeline.restRefs sig spec0 :=
  Pipeline.mem_restRefs_of main_arg0 rfl (by decide)

/-- The program runs to the end, faults nowhere and leaves the argument image as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 main_arg0_rest).trans (V_main_arg0 m c)) (run_main m ρ)

end Cert.KernelIdeal.Hand

end
-- ==== Proof.Spec.lean ====
/-
  The mathematics of the morphological-gradient threshold, stated once over the whole image.

  For an image `x` of 8 planes of 2048 × 2048 reals, let `s = 1 / (1 + e^(-x))` pointwise. Pad `s` by two rows and
  two columns on every side of each plane with a constant `lit` (`padSig lit x b R C`, the padded plane read at row
  `R` and column `C` of 2052 × 2052). The structuring element is the 5 × 5 ellipse: the 17 offsets `(a, c)` with
  `a ∈ {1,2,3}` and any `c ≤ 4`, or `a ∈ {0,4}` and `c = 2`. The dilation at `(h, w)` is the maximum of the
  padded plane (padding −10⁴) over `(h + a, w + c)`, the erosion the minimum (padding +10⁴); the result is 1 where
  dilation − erosion exceeds 1/2 and 0 elsewhere. The maximum and the minimum are taken in the fixed order of
  the offsets (`tapFold`), which is the order both programs use.
-/
import Idealize.ShloMosaic.PureOps.Ideal
import Idealize.ShloMosaic.Lib.ValueIdx

noncomputable section

namespace Cert.Morph

open Idealize.ShloMosaic Idealize.ShloMosaic.ValueIdx

/-- The image's shape: 8 planes (one channel) of 2048 × 2048. -/
abbrev SX : Shape := ⟨4, ![8, 1, 2048, 2048]⟩

/-- The padded plane `b` of `sigmoid x` at row `R`, column `C` (both below 2052): the sigmoid of the image two rows up
    and two columns left when that lies inside the image, the padding value `lit` otherwise. -/
def padSig (lit : EReal) (x : SX.Idx → EReal) (b : Fin 8) (R C : Nat) : EReal :=
  if h : (2 ≤ R ∧ R < 2050) ∧ (2 ≤ C ∧ C < 2050) then
    Ideal.logistic (x (ix4 b (0 : Fin 1) (⟨R - 2, by omega⟩ : Fin 2048) (⟨C - 2, by omega⟩ : Fin 2048)))
  else lit

/-- `op` folded over the ellipse's 17 offsets in row-major order, from the first offset's value. -/
def tapFold (op : EReal → EReal → EReal) (f : Nat → Nat → EReal) : EReal :=
  op (op (op (op (op (op (op (op (op (op (op (op (op (op (op (op (f 0 2) (f 1 0)) (f 1 1)) (f 1 2)) (f 1 3)) (f 1 4)) (f 2 0)) (f 2 1)) (f 2 2)) (f 2 3)) (f 2 4)) (f 3 0)) (f 3 1)) (f 3 2)) (f 3 3)) (f 3 4)) (f 4 2)

/-- The thresholded morphological gradient at image index `j = (b, 0, h, w)`. -/
def G (x : SX.Idx → EReal) (j : SX.Idx) : EReal :=
  Scalar.select
    (Ideal.cmp .ogt
      (tapFold max (fun a c => padSig (Ideal.ofBits .f32 0xC61C4000#32) x (j 0) ((j 2).val + a) ((j 3).val + c))
        - tapFold min (fun a c => padSig (Ideal.ofBits .f32 0x461C4000#32) x (j 0) ((j 2).val + a) ((j 3).val + c)))
      (Ideal.ofBits .f32 0x3F000000#32))
    (Ideal.ofBits .f32 0x3F800000#32) (Ideal.ofBits .f32 0x00000000#32)

end Cert.Morph

end
-- ==== Proof.KernelPayload.lean ====
/-
  The body's stored value read at one element of the output block.

  The body forms two 260 × 2052 tiles — the sigmoid of the band with two rows of the strips above and below it, with
  −10⁴ (for the dilation) or +10⁴ (for the erosion) wherever the tile lies outside the image — and slides the 17
  offsets of the ellipse over them: the element (p, q) of the output block is 1 when the maximum of the first tile
  over (p + a, q + c) exceeds the minimum of the second by more than 1/2, and 0 otherwise.
-/
import proofs.«119502_j48601849922239_1_alg».proof.Proof.KernelIdealBody
import proofs.«119502_j48601849922239_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx
open Cert.KernelIdeal Cert.KernelIdeal.Gen Cert.Morph

/-- A 260 × 2052 tile read at row `r`, column `c` (zero outside the tile, which no offset reaches). -/
def rd (v : FVec Ideal S260x2052 .f32) (r c : Nat) : EReal :=
  if h : r < 260 ∧ c < 2052 then v (ix2 (⟨r, h.1⟩ : Fin 260) (⟨c, h.2⟩ : Fin 2052)) else 0

/-- The 256 × 2048 window of a tile at offset (a, c), read at (p, q), is the tile at (p + a, q + c). -/
theorem slice_rd (v : FVec Ideal S260x2052 .f32) (a c : Nat) (h : S260x2052.Slices ![a, c] S256x2048) (p : Fin 256) (q : Fin 2048) :
    extractStridedSlice S256x2048 ![a, c] v h (ix2 p q) = rd v (p.val + a) (q.val + c) := by
  have h0 : a + 256 ≤ 260 := h.2 0
  have h1 : c + 2048 ≤ 2052 := h.2 1
  have hp := p.isLt
  have hq := q.isLt
  unfold rd
  rw [dif_pos ⟨by omega, by omega⟩]
  exact extractStridedSlice_apply _ _ h _ _ (fun d => by
    match d with
    | ⟨0, _⟩ => show p.val + a = a + p.val; omega
    | ⟨1, _⟩ => show q.val + c = c + q.val; omega)

theorem payload_apply (i : grid0.Coords) (v0 : Vec Ideal S1x1x256x2052 .f32) (v2 v4 : Vec Ideal S1x1x8x2052 .f32) (p : Fin 256) (q : Fin 2048) :
    payload (F := Ideal) i v0 v2 v4 (ix4 (0 : Fin 1) (0 : Fin 1) p q)
      = Scalar.select
          (Ideal.cmp .ogt
            (tapFold max (fun a c => rd (k0_pay4 i v0 v2 v4) (p.val + a) (q.val + c))
              - tapFold min (fun a c => rd (k0_pay5 i v0 v2 v4) (p.val + a) (q.val + c)))
            (Ideal.ofBits .f32 0x3F000000#32))
          (Ideal.ofBits .f32 0x3F800000#32) (Ideal.ofBits .f32 0x00000000#32) := by
  unfold payload k0_pay1
  refine (shapeCast_apply _ _ (ix4 (0 : Fin 1) (0 : Fin 1) p q) (ix2 p q) (by
    rw [Shape.rowMajor_val_two, Shape.rowMajor_val_four]; simp)).trans ?_
  simp only [select_apply, cmpf_apply, subf_apply, maximumf_apply, minimumf_apply, broadcast_apply,
    k0_pay9, k0_pay10, k0_pay11, k0_pay6, k0_pay7, k0_pay8, slice_rd, tapFold]
  rfl

end Cert.KernelIdeal.Hand

end
-- ==== Proof.KernelPieces.lean ====
/-
  Three pieces of the kernel, each read at an index.

  The kernel works on a band of 260 rows and 2052 columns of a plane whose columns are already padded by two on each
  side: the band at grid row `t` starts two rows above row `256 · t` of the image. Its padding mask marks the
  positions of the band that lie outside the image: band row `r` is image row `256 · t + r − 2` and column `q` is
  image column `q − 2`, and a position is padding when either is negative or at least 2048. The band's data are the last
  two rows of the 8-row block above, the 256 rows of the block itself and the first two rows of the 8-row block below, laid
  one after the other, with the sigmoid applied to every element. The column padding before the kernel reads the image two
  columns left inside `[2, 2050)` and the padding value outside.
-/
import proofs.«119502_j48601849922239_1_alg».proof.Proof.Spec
import proofs.«119502_j48601849922239_1_alg».proof.Proof.Gen.KernelIdeal.Skeleton
import Idealize.ShloMosaic.Lib.ValueIdx
import Idealize.ShloMosaic.Lib.Pipeline.Value

noncomputable section

namespace Cert.Morph.Ker

open Idealize.ShloMosaic Idealize.ShloMosaic.ValueIdx Cert.KernelIdeal Cert.KernelIdeal.Gen

/-! ## The column padding -/

/-- A pad by two on each side of the last axis, read at an index of the padded shape: the operand two columns left when
    the column lies in `[2, 2050)`, the padding value otherwise. -/
theorem padW_apply (x : SX.Idx → EReal) (v : S_.Idx → EReal) (j : S8x1x2048x2052.Idx) :
    pad S8x1x2048x2052 ![0, 0, 0, 2] ![0, 0, 0, 2] ![0, 0, 0, 0] x v
        pads_S8x1x2048x2048_S8x1x2048x2052_000_000_000_220 h_S_ j
      = if h : 2 ≤ (j 3).val ∧ (j 3).val < 2050 then
          x (ix4 (j 0) (0 : Fin 1) (j 2) (⟨(j 3).val - 2, by omega⟩ : Fin 2048))
        else v ix0 := by
  unfold pad
  split <;> split
  · rename_i hin h
    congr 1
    funext a
    match a with
    | ⟨0, _⟩ => exact Fin.ext (by show ((j 0).val - 0) / (0 + 1) = (j 0).val; omega)
    | ⟨1, _⟩ =>
      have h1 : (j 1).val < 1 := (j 1).isLt
      exact Fin.ext (by show ((j 1).val - 0) / (0 + 1) = 0; omega)
    | ⟨2, _⟩ => exact Fin.ext (by show ((j 2).val - 0) / (0 + 1) = (j 2).val; omega)
    | ⟨3, _⟩ => exact Fin.ext (by show ((j 3).val - 2) / (0 + 1) = (j 3).val - 2; omega)
  · rename_i hin h
    have h3 : 2 ≤ (j 3).val ∧ ((j 3).val - 2) % (0 + 1) = 0 ∧ ((j 3).val - 2) / (0 + 1) < 2048 := hin 3
    exact absurd ⟨h3.1, by omega⟩ h
  · rename_i hin h
    refine absurd (fun a => ?_) hin
    have h0 : (j 0).val < 8 := (j 0).isLt
    have h1 : (j 1).val < 1 := (j 1).isLt
    have h2 : (j 2).val < 2048 := (j 2).isLt
    match a with
    | ⟨0, _⟩ => show 0 ≤ (j 0).val ∧ ((j 0).val - 0) % (0 + 1) = 0 ∧ ((j 0).val - 0) / (0 + 1) < 8; omega
    | ⟨1, _⟩ => show 0 ≤ (j 1).val ∧ ((j 1).val - 0) % (0 + 1) = 0 ∧ ((j 1).val - 0) / (0 + 1) < 1; omega
    | ⟨2, _⟩ => show 0 ≤ (j 2).val ∧ ((j 2).val - 0) % (0 + 1) = 0 ∧ ((j 2).val - 0) / (0 + 1) < 2048; omega
    | ⟨3, _⟩ => show 2 ≤ (j 3).val ∧ ((j 3).val - 2) % (0 + 1) = 0 ∧ ((j 3).val - 2) / (0 + 1) < 2048; omega
  · exact congrArg v (funext fun a => a.elim0)

/-! ## The padding mask -/

/-- The 32-bit word of `n − 2`, for `n` below 4096, as a signed integer. -/
theorem toInt_sub_two (n : Nat) (hn : n < 4096) : (BitVec.ofNat 32 n - 2#32).toInt = (n : Int) - 2 := by
  rw [BitVec.toInt_eq_toNat_cond, BitVec.toNat_sub, BitVec.toNat_ofNat, BitVec.toNat_ofNat]
  split <;> omega

/-- `n − 2` is negative, or at least 2048, exactly when `n` is outside `[2, 2050)`. -/
theorem outside_word (n : Nat) (hn : n < 4096) :
    IntOp.ori (IntOp.cmpi .slt (BitVec.ofNat 32 n - 2#32) 0#32) (IntOp.cmpi .sge (BitVec.ofNat 32 n - 2#32) 2048#32)
      = if 2 ≤ n ∧ n < 2050 then 0#1 else 1#1 := by
  have e0 : (0#32).toInt = 0 := by decide
  have e1 : (2048#32).toInt = 2048 := by decide
  show BitVec.ofBool ((BitVec.ofNat 32 n - 2#32).slt 0#32) ||| BitVec.ofBool ((2048#32).sle (BitVec.ofNat 32 n - 2#32)) = _
  rw [BitVec.slt_eq_decide, BitVec.sle_eq_decide, toInt_sub_two n hn, e0, e1]
  by_cases h : 2 ≤ n ∧ n < 2050
  · rw [if_pos h, decide_eq_false (by omega), decide_eq_false (by omega)]; rfl
  · rw [if_neg h]
    by_cases h2 : n < 2
    · rw [decide_eq_true (by omega), decide_eq_false (by omega)]; rfl
    · rw [decide_eq_false (by omega), decide_eq_true (by omega)]; rfl

/-! The integer operations act element by element. -/
theorem ori_apply {s : Shape} {w : Nat} (a b : IVec s w) (j : s.Idx) : ori a b j = IntOp.ori (a j) (b j) := rfl
theorem cmpi_apply {s : Shape} {w : Nat} (p : CmpIPredicate) (a b : IVec s w) (j : s.Idx) :
    cmpi p a b j = IntOp.cmpi p (a j) (b j) := rfl
theorem addi_apply {s : Shape} {w : Nat} (a b : IVec s w) (j : s.Idx) : addi a b j = IntOp.addi (a j) (b j) := rfl
theorem subi_apply {s : Shape} {w : Nat} (a b : IVec s w) (j : s.Idx) : subi a b j = IntOp.subi (a j) (b j) := rfl

/-- Two one-bit flags that are each 0 inside a range and 1 outside it: their disjunction is 0 exactly when both
    coordinates are inside. -/
theorem or_outside (P Q : Prop) [Decidable P] [Decidable Q] :
    IntOp.ori (if P then 0#1 else 1#1) (if Q then 0#1 else 1#1) = if P ∧ Q then 0#1 else 1#1 := by
  by_cases hP : P
  · by_cases hQ : Q
    · rw [if_pos hP, if_pos hQ, if_pos ⟨hP, hQ⟩]; decide
    · rw [if_pos hP, if_neg hQ, if_neg (fun h : P ∧ Q => hQ h.2)]; decide
  · rw [if_neg hP, if_neg (fun h : P ∧ Q => hP h.1)]
    by_cases hQ : Q
    · rw [if_pos hQ]; decide
    · rw [if_neg hQ]; decide

/-- The mask of the band at grid point `i`, at band row `r` and column `q`: 0 when image row `256 · i₁ + r − 2` and
    image column `q − 2` both lie in `[0, 2048)`, 1 otherwise. -/
theorem mask_apply (i : grid0.Coords) (r : Fin 260) (q : Fin 2052) :
    k0_pay3 i (ix2 r q)
      = if ((2 ≤ (i 1).val * 256 + r.val ∧ (i 1).val * 256 + r.val < 2050) ∧ (2 ≤ q.val ∧ q.val < 2050)) then 0#1
        else 1#1 := by
  have hi : (i 1).val < 8 := (i 1).isLt
  have hr : r.val < 260 := r.isLt
  have hq : q.val < 2052 := q.isLt
  have eR : BitVec.ofNat 32 (i 1).val * 256#32 + BitVec.ofNat 32 r.val = BitVec.ofNat 32 ((i 1).val * 256 + r.val) := by
    rw [BitVec.ofNat_add, BitVec.ofNat_mul]
  unfold k0_pay3
  simp only [ori_apply, cmpi_apply, subi_apply, addi_apply, broadcast_apply]
  rw [iota_single_apply .tc S260x2052 32 0 iota_S260x2052_d0_w32 (ix2 r q),
    iota_single_apply .tc S260x2052 32 1 iota_S260x2052_d1_w32 (ix2 r q)]
  show IntOp.ori (IntOp.ori (IntOp.ori
      (IntOp.cmpi .slt (BitVec.ofNat 32 (i 1).val * 256#32 + BitVec.ofNat 32 r.val - 2#32) 0#32)
      (IntOp.cmpi .sge (BitVec.ofNat 32 (i 1).val * 256#32 + BitVec.ofNat 32 r.val - 2#32) 2048#32))
      (IntOp.cmpi .slt (BitVec.ofNat 32 q.val - 2#32) 0#32))
      (IntOp.cmpi .sge (BitVec.ofNat 32 q.val - 2#32) 2048#32) = _
  rw [eR, show ∀ X C D : BitVec 1, IntOp.ori (IntOp.ori X C) D = IntOp.ori X (IntOp.ori C D) from
      fun X C D => BitVec.or_assoc X C D,
    outside_word _ (by omega), outside_word _ (by omega), or_outside]

/-! ## The band's data -/

/-- The sigmoid acts element by element. -/
theorem logistic_apply {s : Shape} (x : FVec Ideal s .f32) (j : s.Idx) : logistic x j = Ideal.logistic (x j) := rfl

/-- The 256-row block viewed as a matrix. -/
theorem cast256_apply (v : Vec Ideal S1x1x256x2052 .f32) (a : Fin 256) (q : Fin 2052) :
    shapeCast S256x2052 v shapeCasts_S1x1x256x2052_S256x2052 (ix2 a q) = v (ix4 0 0 a q) := by
  refine shapeCast_apply _ _ _ _ ?_
  rw [Shape.rowMajor_val_two, Shape.rowMajor_val_four]
  show ((0 * 1 + 0) * 256 + a.val) * 2052 + q.val = a.val * 2052 + q.val
  omega

/-- An 8-row block viewed as a matrix. -/
theorem cast8_apply (v : Vec Ideal S1x1x8x2052 .f32) (a : Fin 8) (q : Fin 2052) :
    shapeCast S8x2052 v shapeCasts_S1x1x8x2052_S8x2052 (ix2 a q) = v (ix4 0 0 a q) := by
  refine shapeCast_apply _ _ _ _ ?_
  rw [Shape.rowMajor_val_two, Shape.rowMajor_val_four]
  show ((0 * 1 + 0) * 8 + a.val) * 2052 + q.val = a.val * 2052 + q.val
  omega

/-- The last two rows of an 8-row matrix. -/
theorem last2_apply (w : FVec Ideal S8x2052 .f32) (a : Fin 2) (q : Fin 2052) :
    extractStridedSlice S2x2052 ![6, 0] w slices_S8x2052_o6_0_S2x2052 (ix2 a q)
      = w (ix2 (⟨6 + a.val, by omega⟩ : Fin 8) q) := by
  refine extractStridedSlice_apply _ _ _ _ _ (fun b => ?_)
  match b with
  | ⟨0, _⟩ => rfl
  | ⟨1, _⟩ => show q.val = 0 + q.val; omega

/-- The first two rows of an 8-row matrix. -/
theorem first2_apply (w : FVec Ideal S8x2052 .f32) (a : Fin 2) (q : Fin 2052) :
    extractStridedSlice S2x2052 ![0, 0] w slices_S8x2052_o0_0_S2x2052 (ix2 a q)
      = w (ix2 (⟨a.val, by omega⟩ : Fin 8) q) := by
  refine extractStridedSlice_apply _ _ _ _ _ (fun b => ?_)
  match b with
  | ⟨0, _⟩ => show a.val = 0 + a.val; omega
  | ⟨1, _⟩ => show q.val = 0 + q.val; omega

/-- The band at row `r` and column `q`: the sigmoid of row `6 + r` of the block above for `r < 2`, of row `r − 2` of the
    256-row block for `2 ≤ r < 258`, of row `r − 258` of the block below for `258 ≤ r`. -/
theorem band_apply (v0 : Vec Ideal S1x1x256x2052 .f32) (v2 v4 : Vec Ideal S1x1x8x2052 .f32) (r : Fin 260) (q : Fin 2052) :
    k0_pay2 (F := Ideal) v0 v2 v4 (ix2 r q)
      = Ideal.logistic
          (if h : r.val < 2 then v2 (ix4 0 0 (⟨6 + r.val, by omega⟩ : Fin 8) q)
           else if h2 : r.val < 258 then v0 (ix4 0 0 (⟨r.val - 2, by omega⟩ : Fin 256) q)
           else v4 (ix4 0 0 (⟨r.val - 258, by omega⟩ : Fin 8) q)) := by
  have hr : r.val < 260 := r.isLt
  unfold k0_pay2
  show logistic _ (ix2 r q) = _
  rw [logistic_apply]
  congr 1
  split
  · rename_i h
    refine Eq.trans (concatenate_apply_piece (0 : Fin 2) _ _ (ix2 r q) 0 (by show 0 < 3; omega) S2x2052 _ rfl rfl 0 rfl
      (ix2 (⟨r.val, h⟩ : Fin 2) q) (fun b hb => ?_) ?_) ?_
    · match b with
      | ⟨0, _⟩ => exact absurd rfl hb
      | ⟨1, _⟩ => rfl
    · show 0 + r.val = r.val; omega
    · rw [last2_apply, cast8_apply]
  · split
    · rename_i h h2
      refine Eq.trans (concatenate_apply_piece (0 : Fin 2) _ _ (ix2 r q) 1 (by show 1 < 3; omega) S256x2052 _ rfl rfl 2 rfl
        (ix2 (⟨r.val - 2, by omega⟩ : Fin 256) q) (fun b hb => ?_) ?_) ?_
      · match b with
        | ⟨0, _⟩ => exact absurd rfl hb
        | ⟨1, _⟩ => rfl
      · show 2 + (r.val - 2) = r.val; omega
      · rw [cast256_apply]
    · rename_i h h2
      refine Eq.trans (concatenate_apply_piece (0 : Fin 2) _ _ (ix2 r q) 2 (by show 2 < 3; omega) S2x2052 _ rfl rfl 258 rfl
        (ix2 (⟨r.val - 258, by omega⟩ : Fin 2) q) (fun b hb => ?_) ?_) ?_
      · match b with
        | ⟨0, _⟩ => exact absurd rfl hb
        | ⟨1, _⟩ => rfl
      · show 258 + (r.val - 258) = r.val; omega
      · rw [first2_apply, cast8_apply]

end Cert.Morph.Ker

end
-- ==== Proof.KernelIdealValue.lean ====
/-
  The result array after the kernel's run is the thresholded morphological gradient of the argument image.

  The array the kernel reads is the image with two zero columns added on each side. At grid point (plane, band) the
  band window holds rows 256·band … 256·band + 255 of the plane, the strip above rows 8·(32·band − 1) … + 7 and the
  strip below rows 256·(band + 1) … + 7 (each clamped to the image's first or last strip). Row r of the body's
  260-row tile is row 6 + r of the strip above for r < 2, row r − 2 of the band for 2 ≤ r < 258 and row r − 258 of the
  strip below otherwise: in every case row 256·band + r − 2 of the image, whenever that row exists — and where it does
  not (the clamped strips, and the zero columns) the body's mask puts the padding value instead. So the tile is the
  plane padded by two rows and two columns, shifted to the band (`tile_eq`); the 17 offsets of the ellipse slide over it
  exactly as they slide over the padded plane (`flushed_eq`); and the 64 blocks written back tile the result array
  (`covered`).
-/
import proofs.«119502_j48601849922239_1_alg».proof.Proof.KernelIdealRun
import proofs.«119502_j48601849922239_1_alg».proof.Proof.KernelPayload
import proofs.«119502_j48601849922239_1_alg».proof.Proof.KernelPieces
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Morph

variable (m : (ℓ : Loc nD τ sig) → Buf (Elt Ideal) ℓ) (ρ : Dev nD → PrngReg)

/-! ## The padded array -/

/-- The array the three input windows read is the argument image padded by two columns of the zero constant on each side. -/
theorem V_main_v0 (c : Dev nD) : (V m c main_v0 : S8x1x2048x2052.Idx → EReal)
    = pad S8x1x2048x2052 ![0, 0, 0, 2] ![0, 0, 0, 2] ![0, 0, 0, 0] (m ((c : Thread nD τ).loc main_arg0))
        (constant (F := Ideal) S_ .f32 0x00000000#32) pads_S8x1x2048x2048_S8x1x2048x2052_000_000_000_220 h_S_ := by
  dsimp only [V]
  simp only [hostOps0, hostOps0_1, List.flatten_cons, List.flatten_nil, List.append_nil, List.cons_append, List.nil_append]
  after_results
  rfl

/-! ## The grid and the windows' block indices -/

/-- The plane and the band of grid point `t`. -/
def gb (t : Fin cfg0.N) : Fin 8 := grid0.coords t 0
def gh (t : Fin cfg0.N) : Fin 8 := grid0.coords t 1

/-- The four index maps over the grid: the band window and the output window sit at (plane, band); the strip above at
    strip 32·band − 1 (strip 0 for the first band), the strip below at strip 32·(band + 1) (strip 255 for the last). -/
theorem idx_facts : ∀ t : Fin cfg0.N,
    (win0_0.index t 0 = (gb t).val ∧ win0_0.index t 1 = 0 ∧ win0_0.index t 2 = (gh t).val ∧ win0_0.index t 3 = 0)
    ∧ (win0_1.index t 0 = (gb t).val ∧ win0_1.index t 1 = 0 ∧ win0_1.index t 2 = (gh t).val * 32 - 1 ∧ win0_1.index t 3 = 0)
    ∧ (win0_2.index t 0 = (gb t).val ∧ win0_2.index t 1 = 0 ∧ win0_2.index t 2 = min (((gh t).val + 1) * 32) 255 ∧ win0_2.index t 3 = 0)
    ∧ (win0_3.index t 0 = (gb t).val ∧ win0_3.index t 1 = 0 ∧ win0_3.index t 2 = (gh t).val ∧ win0_3.index t 3 = 0) :=
  (by decide +kernel : ∀ t : Fin grid0.N, _)

/-- Every (plane, band) is some grid point's. -/
theorem idx_onto : ∀ (b h : Fin 8), ∃ t : Fin cfg0.N, (gb t).val = b.val ∧ (gh t).val = h.val :=
  (by decide +kernel : ∀ (b h : Fin 8), ∃ t : Fin grid0.N, (grid0.coords t 0).val = b.val ∧ (grid0.coords t 1).val = h.val)

/-! ## The input blocks read at an element -/

theorem iblk0_apply (c : Dev nD) (t : Fin cfg0.N) (r : Fin 256) (q : Fin 2052) :
    iblk m c 0 t (ix4 (0 : Fin 1) (0 : Fin 1) r q)
      = (V m c main_v0 : S8x1x2048x2052.Idx → EReal) (ix4 (gb t) (0 : Fin 1) (⟨(gh t).val * 256 + r.val, by have := (gh t).isLt; omega⟩ : Fin 2048) q) := by
  obtain ⟨⟨e0, e1, e2, e3⟩, -⟩ := idx_facts t
  show V m c main_v0 (((cfg0.win 0).blk t).view.emb (ix4 (0 : Fin 1) (0 : Fin 1) r q)) = _
  refine congrArg (V m c main_v0) ?_
  funext a; apply Fin.ext
  match a with
  | ⟨0, _⟩ => show win0_0.index t 0 * 1 + 1 * 0 = (gb t).val; omega
  | ⟨1, _⟩ => show win0_0.index t 1 * 1 + 1 * 0 = 0; omega
  | ⟨2, _⟩ => show win0_0.index t 2 * 256 + 1 * r.val = (gh t).val * 256 + r.val; omega
  | ⟨3, _⟩ => show win0_0.index t 3 * 2052 + 1 * q.val = q.val; omega

theorem iblk1_apply (c : Dev nD) (t : Fin cfg0.N) (r : Fin 8) (q : Fin 2052) :
    iblk m c 1 t (ix4 (0 : Fin 1) (0 : Fin 1) r q)
      = (V m c main_v0 : S8x1x2048x2052.Idx → EReal) (ix4 (gb t) (0 : Fin 1) (⟨((gh t).val * 32 - 1) * 8 + r.val, by have := (gh t).isLt; omega⟩ : Fin 2048) q) := by
  obtain ⟨-, ⟨e0, e1, e2, e3⟩, -⟩ := idx_facts t
  show V m c main_v0 (((cfg0.win 1).blk t).view.emb (ix4 (0 : Fin 1) (0 : Fin 1) r q)) = _
  refine congrArg (V m c main_v0) ?_
  funext a; apply Fin.ext
  match a with
  | ⟨0, _⟩ => show win0_1.index t 0 * 1 + 1 * 0 = (gb t).val; omega
  | ⟨1, _⟩ => show win0_1.index t 1 * 1 + 1 * 0 = 0; omega
  | ⟨2, _⟩ => show win0_1.index t 2 * 8 + 1 * r.val = ((gh t).val * 32 - 1) * 8 + r.val; omega
  | ⟨3, _⟩ => show win0_1.index t 3 * 2052 + 1 * q.val = q.val; omega

theorem iblk2_apply (c : Dev nD) (t : Fin cfg0.N) (r : Fin 8) (q : Fin 2052) :
    iblk m c 2 t (ix4 (0 : Fin 1) (0 : Fin 1) r q)
      = (V m c main_v0 : S8x1x2048x2052.Idx → EReal) (ix4 (gb t) (0 : Fin 1)
          (⟨(min (((gh t).val + 1) * 32) 255) * 8 + r.val, by have := (gh t).isLt; have := Nat.min_le_right (((gh t).val + 1) * 32) 255; omega⟩ : Fin 2048) q) := by
  obtain ⟨-, -, ⟨e0, e1, e2, e3⟩, -⟩ := idx_facts t
  show V m c main_v0 (((cfg0.win 2).blk t).view.emb (ix4 (0 : Fin 1) (0 : Fin 1) r q)) = _
  refine congrArg (V m c main_v0) ?_
  funext a; apply Fin.ext
  match a with
  | ⟨0, _⟩ => show win0_2.index t 0 * 1 + 1 * 0 = (gb t).val; omega
  | ⟨1, _⟩ => show win0_2.index t 1 * 1 + 1 * 0 = 0; omega
  | ⟨2, _⟩ => show win0_2.index t 2 * 8 + 1 * r.val = (min (((gh t).val + 1) * 32) 255) * 8 + r.val; rw [e2]; omega
  | ⟨3, _⟩ => show win0_2.index t 3 * 2052 + 1 * q.val = q.val; omega

/-- The output block's element (p, q) at grid point `t` is the result array's element (plane, 256·band + p, q). -/
theorem oblk_emb (t : Fin cfg0.N) (p : Fin 256) (q : Fin 2048) :
    ((cfg0.win 3).blk t).view.emb (ix4 (0 : Fin 1) (0 : Fin 1) p q)
      = ix4 (gb t) (0 : Fin 1) (⟨(gh t).val * 256 + p.val, by have := (gh t).isLt; omega⟩ : Fin 2048) q := by
  obtain ⟨-, -, -, ⟨e0, e1, e2, e3⟩⟩ := idx_facts t
  funext a; apply Fin.ext
  match a with
  | ⟨0, _⟩ => show win0_3.index t 0 * 1 + 1 * 0 = (gb t).val; omega
  | ⟨1, _⟩ => show win0_3.index t 1 * 1 + 1 * 0 = 0; omega
  | ⟨2, _⟩ => show win0_3.index t 2 * 256 + 1 * p.val = (gh t).val * 256 + p.val; omega
  | ⟨3, _⟩ => show win0_3.index t 3 * 2048 + 1 * q.val = q.val; omega

/-! ## Offsets -/

/-- Two families of values that agree at the ellipse's offsets fold alike. -/
theorem tapFold_congr (op : EReal → EReal → EReal) (f g : Nat → Nat → EReal) (h : ∀ a c, a ≤ 4 → c ≤ 4 → f a c = g a c) :
    tapFold op f = tapFold op g := by
  unfold tapFold
  rw [h 0 2 (by omega) (by omega), h 1 0 (by omega) (by omega), h 1 1 (by omega) (by omega), h 1 2 (by omega) (by omega), h 1 3 (by omega) (by omega), h 1 4 (by omega) (by omega), h 2 0 (by omega) (by omega), h 2 1 (by omega) (by omega), h 2 2 (by omega) (by omega), h 2 3 (by omega) (by omega), h 2 4 (by omega) (by omega), h 3 0 (by omega) (by omega), h 3 1 (by omega) (by omega), h 3 2 (by omega) (by omega), h 3 3 (by omega) (by omega), h 3 4 (by omega) (by omega), h 4 2 (by omega) (by omega)]

/-! ## The two tiles are the padded planes -/

/-- The image two columns left of a padded-array position inside the image's columns. -/
theorem padded_inside (c : Dev nD) (b : Fin 8) (R : Fin 2048) (q : Fin 2052) (hq : 2 ≤ q.val ∧ q.val < 2050) :
    (V m c main_v0 : S8x1x2048x2052.Idx → EReal) (ix4 b (0 : Fin 1) R q)
      = (m ((c : Thread nD τ).loc main_arg0) : SX.Idx → EReal) (ix4 b (0 : Fin 1) R (⟨q.val - 2, by omega⟩ : Fin 2048)) := by
  rw [V_main_v0, Cert.Morph.Ker.padW_apply, dif_pos hq]

/-- A tile of the body at grid point `t` — the selected sigmoid of the band between its two strips — read at row `r`,
    column `q`, is the padded plane at row 256·band + r: inside the image the three windows' blocks are the image's rows
    256·band + r − 2 (the strip above ends at row 256·band − 1, the strip below starts at row 256·(band + 1), and
    wherever a strip was clamped at the image's edge the position is padding), outside it the padding value. -/
theorem tile_eq (lit : EReal) (c : Dev nD) (t : Fin cfg0.N) (r q : Nat) (hr : r < 260) (hq : q < 2052) :
    Scalar.select (k0_pay3 (grid0.coords t) (ix2 (⟨r, hr⟩ : Fin 260) (⟨q, hq⟩ : Fin 2052))) lit
        (k0_pay2 (F := Ideal) (iblk m c 0 t) (iblk m c 1 t) (iblk m c 2 t) (ix2 (⟨r, hr⟩ : Fin 260) (⟨q, hq⟩ : Fin 2052)))
      = padSig lit (m ((c : Thread nD τ).loc main_arg0)) (gb t) ((gh t).val * 256 + r) q := by
  have hh : (gh t).val < 8 := (gh t).isLt
  rw [Cert.Morph.Ker.mask_apply, Cert.Morph.Ker.band_apply]
  show Scalar.select (if ((2 ≤ (gh t).val * 256 + r ∧ (gh t).val * 256 + r < 2050) ∧ (2 ≤ q ∧ q < 2050)) then 0#1 else 1#1) lit _ = _
  unfold padSig
  by_cases hin : (2 ≤ (gh t).val * 256 + r ∧ (gh t).val * 256 + r < 2050) ∧ (2 ≤ q ∧ q < 2050)
  · rw [if_pos hin, dif_pos hin, select_zero]
    congr 1
    by_cases h1 : r < 2
    · rw [dif_pos h1, iblk1_apply, padded_inside m c _ _ _ hin.2]
      congr 1
      funext a; apply Fin.ext
      match a with
      | ⟨0, _⟩ => rfl
      | ⟨1, _⟩ => rfl
      | ⟨2, _⟩ => show ((gh t).val * 32 - 1) * 8 + (6 + r) = (gh t).val * 256 + r - 2; omega
      | ⟨3, _⟩ => rfl
    · rw [dif_neg h1]
      by_cases h2 : r < 258
      · rw [dif_pos h2, iblk0_apply, padded_inside m c _ _ _ hin.2]
        congr 1
        funext a; apply Fin.ext
        match a with
        | ⟨0, _⟩ => rfl
        | ⟨1, _⟩ => rfl
        | ⟨2, _⟩ => show (gh t).val * 256 + (r - 2) = (gh t).val * 256 + r - 2; omega
        | ⟨3, _⟩ => rfl
      · rw [dif_neg h2, iblk2_apply, padded_inside m c _ _ _ hin.2]
        congr 1
        funext a; apply Fin.ext
        match a with
        | ⟨0, _⟩ => rfl
        | ⟨1, _⟩ => rfl
        | ⟨2, _⟩ =>
          show (min (((gh t).val + 1) * 32) 255) * 8 + (r - 258) = (gh t).val * 256 + r - 2
          have hm : min (((gh t).val + 1) * 32) 255 = ((gh t).val + 1) * 32 := Nat.min_eq_left (by omega)
          rw [hm]; omega
        | ⟨3, _⟩ => rfl
  · rw [if_neg hin, dif_neg hin, select_one]

theorem tile_dil (c : Dev nD) (t : Fin cfg0.N) (r q : Nat) (hr : r < 260) (hq : q < 2052) :
    rd (k0_pay4 (F := Ideal) (grid0.coords t) (iblk m c 0 t) (iblk m c 1 t) (iblk m c 2 t)) r q
      = padSig (Ideal.ofBits .f32 0xC61C4000#32) (m ((c : Thread nD τ).loc main_arg0)) (gb t) ((gh t).val * 256 + r) q := by
  unfold rd
  rw [dif_pos ⟨hr, hq⟩]
  exact tile_eq m _ c t r q hr hq

theorem tile_ero (c : Dev nD) (t : Fin cfg0.N) (r q : Nat) (hr : r < 260) (hq : q < 2052) :
    rd (k0_pay5 (F := Ideal) (grid0.coords t) (iblk m c 0 t) (iblk m c 1 t) (iblk m c 2 t)) r q
      = padSig (Ideal.ofBits .f32 0x461C4000#32) (m ((c : Thread nD τ).loc main_arg0)) (gb t) ((gh t).val * 256 + r) q := by
  unfold rd
  rw [dif_pos ⟨hr, hq⟩]
  exact tile_eq m _ c t r q hr hq

/-! ## What a grid point writes back, and the result array -/

theorem hz4 : (![0, 0, 0, 0] : Fin 4 → Nat) = fun _ => 0 := funext fun a => by fin_cases a <;> rfl

/-- What grid point `t` writes back is block `t` of the thresholded gradient of the argument image. -/
theorem flushed_eq (c : Dev nD) (t : Fin cfg0.N) :
    (dats (F := Ideal) m 0 c).flushed 3 t = ((cfg0.win 3).blk t).view.read (Elt Ideal) (G (m ((c : Thread nD τ).loc main_arg0))) := by
  show (cfg0.win 3).cut (grid0.coords t) ((dats (F := Ideal) m 0 c).after 3 t) = _
  rw [after3]
  unfold outBlock
  rw [View.canon_unit_zero hz4]
  simp only [View.ld_unit_zero (S := S1x1x256x2052) hz4, View.ld_unit_zero (S := S1x1x8x2052) hz4]
  funext j
  obtain ⟨p, q, rfl⟩ : ∃ (p : Fin 256) (q : Fin 2048), j = ix4 (0 : Fin 1) (0 : Fin 1) p q :=
    ⟨j 2, j 3, by
      funext a; apply Fin.ext
      match a with
      | ⟨0, _⟩ => show (j 0).val = 0; have : (j 0).val < 1 := (j 0).isLt; omega
      | ⟨1, _⟩ => show (j 1).val = 0; have : (j 1).val < 1 := (j 1).isLt; omega
      | ⟨2, _⟩ => rfl
      | ⟨3, _⟩ => rfl⟩
  show payload (F := Ideal) (grid0.coords t) (iblk m c 0 t) (iblk m c 1 t) (iblk m c 2 t) (ix4 (0 : Fin 1) (0 : Fin 1) p q)
    = G (m ((c : Thread nD τ).loc main_arg0)) (((cfg0.win 3).blk t).view.emb (ix4 (0 : Fin 1) (0 : Fin 1) p q))
  have hp := p.isLt
  have hq := q.isLt
  rw [payload_apply, oblk_emb]
  unfold G
  rw [tapFold_congr max _ (fun a' c' => padSig (Ideal.ofBits .f32 0xC61C4000#32) (m ((c : Thread nD τ).loc main_arg0)) (gb t) ((gh t).val * 256 + p.val + a') (q.val + c'))
      (fun a' c' ha hc => by rw [tile_dil m c t (p.val + a') (q.val + c') (by omega) (by omega), Nat.add_assoc]),
    tapFold_congr min _ (fun a' c' => padSig (Ideal.ofBits .f32 0x461C4000#32) (m ((c : Thread nD τ).loc main_arg0)) (gb t) ((gh t).val * 256 + p.val + a') (q.val + c'))
      (fun a' c' ha hc => by rw [tile_ero m c t (p.val + a') (q.val + c') (by omega) (by omega), Nat.add_assoc])]

/-- An index of the result array is in grid point `t`'s block iff each coordinate is in the block's range. -/
theorem mem_blk3 (t : Fin cfg0.N) (i : S8x1x2048x2048.Idx) :
    i ∈ ((cfg0.win 3).blk t).view.set ↔ ∀ a : Fin 4, win0_3.index t a * S1x1x256x2048.size a ≤ (i a).val ∧ (i a).val < win0_3.index t a * S1x1x256x2048.size a + S1x1x256x2048.size a := by
  show i ∈ ((View.whole main_v1).slice (win0_3.rect t)).set ↔ _
  rw [View.set_slice_whole, Rect.mem_set_unit]
  exact Iff.rfl

/-- Every element of the result array is written back by the grid point of its plane and band. -/
theorem covered (i : S8x1x2048x2048.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 2048 := (i 2).isLt
  have h3 : (i 3).val < 2048 := (i 3).isLt
  obtain ⟨t, hb, hh⟩ := idx_onto (⟨(i 0).val, h0⟩ : Fin 8) (⟨(i 2).val / 256, by omega⟩ : Fin 8)
  obtain ⟨-, -, -, ⟨e0, e1, e2, e3⟩⟩ := idx_facts t
  have hb' : (gb t).val = (i 0).val := hb
  have hh' : (gh t).val = (i 2).val / 256 := hh
  refine ⟨t, flush0_3 t, ?_⟩
  rw [mem_blk3]
  intro a
  match a with
  | ⟨0, _⟩ => show win0_3.index t 0 * 1 ≤ (i 0).val ∧ (i 0).val < win0_3.index t 0 * 1 + 1; omega
  | ⟨1, _⟩ => show win0_3.index t 1 * 1 ≤ (i 1).val ∧ (i 1).val < win0_3.index t 1 * 1 + 1; omega
  | ⟨2, _⟩ => show win0_3.index t 2 * 256 ≤ (i 2).val ∧ (i 2).val < win0_3.index t 2 * 256 + 256; omega
  | ⟨3, _⟩ => show win0_3.index t 3 * 2048 ≤ (i 3).val ∧ (i 3).val < win0_3.index t 3 * 2048 + 2048; omega

/-- After the run the result array is the thresholded gradient of the argument image. -/
theorem final (c : Dev nD) : (dats (F := Ideal) m 0 c).arrAt 3 cfg0.N = G (m ((c : Thread nD τ).loc main_arg0)) :=
  (dats (F := Ideal) m 0 c).arrAt_eq_of_cover 3 (G (m ((c : Thread nD τ).loc main_arg0))) (fun t _ => flushed_eq m c t) covered

/-- The run, read: the result array ends at the thresholded gradient of the argument image, the image unchanged. -/
theorem run : θ_run defs (onTc (τ := τ) (main (F := Ideal))) ⟨m, fun _ => 0, ρ⟩ fun r => ∀ c : Dev nD,
      r.2.mem ((c.tc : Thread nD τ).loc main_v1) = G (m ((c.tc : Thread nD τ).loc main_arg0))
      ∧ r.2.mem ((c.tc : Thread nD τ).loc main_arg0) = m ((c.tc : Thread nD τ).loc main_arg0) :=
  (θ_run defs _ _).mono (fun r h c => ⟨((h c).1 3).trans (final m c), ((h c).2 main_arg0 main_arg0_rest).trans (V_main_arg0 m c)⟩)
    (run_main m ρ)

end Cert.KernelIdeal.Hand

end
-- ==== Proof.RefIsG.lean ====
/-
  The reference program, read index by index, is the thresholded morphological gradient `G`.

  The first six operations compute the sigmoid `1 / (1 + e^(-x))` pointwise. A pad by two rows and two columns on
  each side reads the sigmoid two rows up and two columns left inside the image and the padding value outside; this is
  `padSig`. Each of the 17 unit-stride slices of a padded plane reads it at the output's row and column shifted by the
  slice's offset, so the left-to-right fold of maxima (minima) over the slices is `tapFold max` (`tapFold min`) of the
  padded plane, and the subtraction, comparison and selection that follow are those of `G`.
-/
import proofs.«119502_j48601849922239_1_alg».proof.Proof.Spec
import proofs.«119502_j48601849922239_1_alg».proof.Proof.Gen.ReferenceIdeal.Read
import Idealize.ShloMosaic.Lib.ValueIdx
import Idealize.ShloMosaic.Lib.IdealHost

noncomputable section

namespace Cert.Morph.Ref

open Idealize.ShloMosaic Idealize.ShloMosaic.ValueIdx Cert.ReferenceIdeal Cert.ReferenceIdeal.Gen Cert.ReferenceIdeal.Read

/-- The image as the reference program takes it: the extended reals at every index of 8 × 1 × 2048 × 2048. -/
abbrev Img := (⟨S8x1x2048x2048, .f32⟩ : BufTy).Contents (Elt Ideal)

/-- Negate, exponential, add one, divide one by the sum: the sigmoid at each index. -/
theorem sig_apply (x : Img) (i : S8x1x2048x2048.Idx) :
    val_main_v5 (F := Ideal) x i = Ideal.logistic (x i) := by
  rw [val_main_v5_apply, val_main_v4_apply, val_main_cst_0_apply, val_main_v3_apply, val_main_v2_apply,
    val_main_cst_apply, val_main_v1_apply, val_main_v0_apply]
  simp only [Ideal.hostDivf_def, Ideal.hostUnary_exp_def, Ideal.hostNegf_def, Ideal.negf_def, Ideal.addf_def,
    Ideal.ofBits_def, Ideal.ofBits_one_f32]
  rfl

/-- A pad by two on each side of the last two axes, read at an index of the padded shape: the operand two rows up and
    two columns left when the row and the column both lie in `[2, 2050)`, the padding value otherwise. -/
theorem pad22_apply (y : S8x1x2048x2048.Idx → EReal) (v : S_.Idx → EReal) (j : S8x1x2052x2052.Idx) :
    pad S8x1x2052x2052 ![0, 0, 2, 2] ![0, 0, 2, 2] ![0, 0, 0, 0] y v
        pads_S8x1x2048x2048_S8x1x2052x2052_000_000_220_220 h_S_ j
      = if h : (2 ≤ (j 2).val ∧ (j 2).val < 2050) ∧ (2 ≤ (j 3).val ∧ (j 3).val < 2050) then
          y (ix4 (j 0) (0 : Fin 1) (⟨(j 2).val - 2, by omega⟩ : Fin 2048) (⟨(j 3).val - 2, by omega⟩ : Fin 2048))
        else v ix0 := by
  unfold pad
  split <;> split
  · rename_i hin h
    congr 1
    funext a
    match a with
    | ⟨0, _⟩ => exact Fin.ext (by show ((j 0).val - 0) / (0 + 1) = (j 0).val; omega)
    | ⟨1, _⟩ =>
      have h1 : (j 1).val < 1 := (j 1).isLt
      exact Fin.ext (by show ((j 1).val - 0) / (0 + 1) = 0; omega)
    | ⟨2, _⟩ => exact Fin.ext (by show ((j 2).val - 2) / (0 + 1) = (j 2).val - 2; omega)
    | ⟨3, _⟩ => exact Fin.ext (by show ((j 3).val - 2) / (0 + 1) = (j 3).val - 2; omega)
  · rename_i hin h
    have h2 : 2 ≤ (j 2).val ∧ ((j 2).val - 2) % (0 + 1) = 0 ∧ ((j 2).val - 2) / (0 + 1) < 2048 := hin 2
    have h3 : 2 ≤ (j 3).val ∧ ((j 3).val - 2) % (0 + 1) = 0 ∧ ((j 3).val - 2) / (0 + 1) < 2048 := hin 3
    exact absurd ⟨⟨h2.1, by omega⟩, ⟨h3.1, by omega⟩⟩ h
  · rename_i hin h
    refine absurd (fun a => ?_) hin
    have h0 : (j 0).val < 8 := (j 0).isLt
    have h1 : (j 1).val < 1 := (j 1).isLt
    match a with
    | ⟨0, _⟩ => show 0 ≤ (j 0).val ∧ ((j 0).val - 0) % (0 + 1) = 0 ∧ ((j 0).val - 0) / (0 + 1) < 8; omega
    | ⟨1, _⟩ => show 0 ≤ (j 1).val ∧ ((j 1).val - 0) % (0 + 1) = 0 ∧ ((j 1).val - 0) / (0 + 1) < 1; omega
    | ⟨2, _⟩ => show 2 ≤ (j 2).val ∧ ((j 2).val - 2) % (0 + 1) = 0 ∧ ((j 2).val - 2) / (0 + 1) < 2048; omega
    | ⟨3, _⟩ => show 2 ≤ (j 3).val ∧ ((j 3).val - 2) % (0 + 1) = 0 ∧ ((j 3).val - 2) / (0 + 1) < 2048; omega
  · exact congrArg v (funext fun a => a.elim0)

/-- `padSig` depends on the row and the column only through their values. -/
theorem padSig_congr (lit : EReal) (x : SX.Idx → EReal) (b : Fin 8) {R R' C C' : Nat} (hR : R = R') (hC : C = C') :
    padSig lit x b R C = padSig lit x b R' C' := by subst hR hC; rfl

/-- The plane padded with −10⁴, read at an index of the padded shape. -/
theorem padLo_apply (x : Img) (j : S8x1x2052x2052.Idx) :
    val_main_v6 (F := Ideal) x j = padSig (Ideal.ofBits .f32 0xC61C4000#32) x (j 0) (j 2).val (j 3).val := by
  unfold val_main_v6 padSig
  rw [pad22_apply]
  by_cases h : (2 ≤ (j 2).val ∧ (j 2).val < 2050) ∧ (2 ≤ (j 3).val ∧ (j 3).val < 2050)
  · rw [dif_pos h, dif_pos h, sig_apply]
  · rw [dif_neg h, dif_neg h]; rfl

/-- The plane padded with +10⁴, read at an index of the padded shape. -/
theorem padHi_apply (x : Img) (j : S8x1x2052x2052.Idx) :
    val_main_v40 (F := Ideal) x j = padSig (Ideal.ofBits .f32 0x461C4000#32) x (j 0) (j 2).val (j 3).val := by
  unfold val_main_v40 padSig
  rw [pad22_apply]
  by_cases h : (2 ≤ (j 2).val ∧ (j 2).val < 2050) ∧ (2 ≤ (j 3).val ∧ (j 3).val < 2050)
  · rw [dif_pos h, dif_pos h, sig_apply]
  · rw [dif_neg h, dif_neg h]; rfl

/-! Each slice reads its padded plane at the output's row and column shifted by the slice's offset. -/

theorem tapLo_v7 (x : Img) (i : S8x1x2048x2048.Idx) :
    val_main_v7 (F := Ideal) x i = padSig (Ideal.ofBits .f32 0xC61C4000#32) x (i 0) ((i 2).val + 0) ((i 3).val + 2) := by
  rw [val_main_v7_apply, padLo_apply]
  exact padSig_congr _ _ _ (by show (i 2).val = (i 2).val + 0; omega) (by show 2 + (i 3).val = (i 3).val + 2; omega)

theorem tapLo_v8 (x : Img) (i : S8x1x2048x2048.Idx) :
    val_main_v8 (F := Ideal) x i = padSig (Ideal.ofBits .f32 0xC61C4000#32) x (i 0) ((i 2).val + 1) ((i 3).val + 0) := by
  rw [val_main_v8_apply, padLo_apply]
  exact padSig_congr _ _ _ (by show 1 + (i 2).val = (i 2).val + 1; omega) (by show (i 3).val = (i 3).val + 0; omega)

theorem tapLo_v10 (x : Img) (i : S8x1x2048x2048.Idx) :
    val_main_v10 (F := Ideal) x i = padSig (Ideal.ofBits .f32 0xC61C4000#32) x (i 0) ((i 2).val + 1) ((i 3).val + 1) := by
  rw [val_main_v10_apply, padLo_apply]
  exact padSig_congr _ _ _ (by show 1 + (i 2).val = (i 2).val + 1; omega) (by show 1 + (i 3).val = (i 3).val + 1; omega)

theorem tapLo_v12 (x : Img) (i : S8x1x2048x2048.Idx) :
    val_main_v12 (F := Ideal) x i = padSig (Ideal.ofBits .f32 0xC61C4000#32) x (i 0) ((i 2).val + 1) ((i 3).val + 2) := by
  rw [val_main_v12_apply, padLo_apply]
  exact padSig_congr _ _ _ (by show 1 + (i 2).val = (i 2).val + 1; omega) (by show 2 + (i 3).val = (i 3).val + 2; omega)

theorem tapLo_v14 (x : Img) (i : S8x1x2048x2048.Idx) :
    val_main_v14 (F := Ideal) x i = padSig (Ideal.ofBits .f32 0xC61C4000#32) x (i 0) ((i 2).val + 1) ((i 3).val + 3) := by
  rw [val_main_v14_apply, padLo_apply]
  exact padSig_congr _ _ _ (by show 1 + (i 2).val = (i 2).val + 1; omega) (by show 3 + (i 3).val = (i 3).val + 3; omega)

theorem tapLo_v16 (x : Img) (i : S8x1x2048x2048.Idx) :
    val_main_v16 (F := Ideal) x i = padSig (Ideal.ofBits .f32 0xC61C4000#32) x (i 0) ((i 2).val + 1) ((i 3).val + 4) := by
  rw [val_main_v16_apply, padLo_apply]
  exact padSig_congr _ _ _ (by show 1 + (i 2).val = (i 2).val + 1; omega) (by show 4 + (i 3).val = (i 3).val + 4; omega)

theorem tapLo_v18 (x : Img) (i : S8x1x2048x2048.Idx) :
    val_main_v18 (F := Ideal) x i = padSig (Ideal.ofBits .f32 0xC61C4000#32) x (i 0) ((i 2).val + 2) ((i 3).val + 0) := by
  rw [val_main_v18_apply, padLo_apply]
  exact padSig_congr _ _ _ (by show 2 + (i 2).val = (i 2).val + 2; omega) (by show (i 3).val = (i 3).val + 0; omega)

theorem tapLo_v20 (x : Img) (i : S8x1x2048x2048.Idx) :
    val_main_v20 (F := Ideal) x i = padSig (Ideal.ofBits .f32 0xC61C4000#32) x (i 0) ((i 2).val + 2) ((i 3).val + 1) := by
  rw [val_main_v20_apply, padLo_apply]
  exact padSig_congr _ _ _ (by show 2 + (i 2).val = (i 2).val + 2; omega) (by show 1 + (i 3).val = (i 3).val + 1; omega)

theorem tapLo_v22 (x : Img) (i : S8x1x2048x2048.Idx) :
    val_main_v22 (F := Ideal) x i = padSig (Ideal.ofBits .f32 0xC61C4000#32) x (i 0) ((i 2).val + 2) ((i 3).val + 2) := by
  rw [val_main_v22_apply, padLo_apply]
  exact padSig_congr _ _ _ (by show 2 + (i 2).val = (i 2).val + 2; omega) (by show 2 + (i 3).val = (i 3).val + 2; omega)

theorem tapLo_v24 (x : Img) (i : S8x1x2048x2048.Idx) :
    val_main_v24 (F := Ideal) x i = padSig (Ideal.ofBits .f32 0xC61C4000#32) x (i 0) ((i 2).val + 2) ((i 3).val + 3) := by
  rw [val_main_v24_apply, padLo_apply]
  exact padSig_congr _ _ _ (by show 2 + (i 2).val = (i 2).val + 2; omega) (by show 3 + (i 3).val = (i 3).val + 3; omega)

theorem tapLo_v26 (x : Img) (i : S8x1x2048x2048.Idx) :
    val_main_v26 (F := Ideal) x i = padSig (Ideal.ofBits .f32 0xC61C4000#32) x (i 0) ((i 2).val + 2) ((i 3).val + 4) := by
  rw [val_main_v26_apply, padLo_apply]
  exact padSig_congr _ _ _ (by show 2 + (i 2).val = (i 2).val + 2; omega) (by show 4 + (i 3).val = (i 3).val + 4; omega)

theorem tapLo_v28 (x : Img) (i : S8x1x2048x2048.Idx) :
    val_main_v28 (F := Ideal) x i = padSig (Ideal.ofBits .f32 0xC61C4000#32) x (i 0) ((i 2).val + 3) ((i 3).val + 0) := by
  rw [val_main_v28_apply, padLo_apply]
  exact padSig_congr _ _ _ (by show 3 + (i 2).val = (i 2).val + 3; omega) (by show (i 3).val = (i 3).val + 0; omega)

theorem tapLo_v30 (x : Img) (i : S8x1x2048x2048.Idx) :
    val_main_v30 (F := Ideal) x i = padSig (Ideal.ofBits .f32 0xC61C4000#32) x (i 0) ((i 2).val + 3) ((i 3).val + 1) := by
  rw [val_main_v30_apply, padLo_apply]
  exact padSig_congr _ _ _ (by show 3 + (i 2).val = (i 2).val + 3; omega) (by show 1 + (i 3).val = (i 3).val + 1; omega)

theorem tapLo_v32 (x : Img) (i : S8x1x2048x2048.Idx) :
    val_main_v32 (F := Ideal) x i = padSig (Ideal.ofBits .f32 0xC61C4000#32) x (i 0) ((i 2).val + 3) ((i 3).val + 2) := by
  rw [val_main_v32_apply, padLo_apply]
  exact padSig_congr _ _ _ (by show 3 + (i 2).val = (i 2).val + 3; omega) (by show 2 + (i 3).val = (i 3).val + 2; omega)

theorem tapLo_v34 (x : Img) (i : S8x1x2048x2048.Idx) :
    val_main_v34 (F := Ideal) x i = padSig (Ideal.ofBits .f32 0xC61C4000#32) x (i 0) ((i 2).val + 3) ((i 3).val + 3) := by
  rw [val_main_v34_apply, padLo_apply]
  exact padSig_congr _ _ _ (by show 3 + (i 2).val = (i 2).val + 3; omega) (by show 3 + (i 3).val = (i 3).val + 3; omega)

theorem tapLo_v36 (x : Img) (i : S8x1x2048x2048.Idx) :
    val_main_v36 (F := Ideal) x i = padSig (Ideal.ofBits .f32 0xC61C4000#32) x (i 0) ((i 2).val + 3) ((i 3).val + 4) := by
  rw [val_main_v36_apply, padLo_apply]
  exact padSig_congr _ _ _ (by show 3 + (i 2).val = (i 2).val + 3; omega) (by show 4 + (i 3).val = (i 3).val + 4; omega)

theorem tapLo_v38 (x : Img) (i : S8x1x2048x2048.Idx) :
    val_main_v38 (F := Ideal) x i = padSig (Ideal.ofBits .f32 0xC61C4000#32) x (i 0) ((i 2).val + 4) ((i 3).val + 2) := by
  rw [val_main_v38_apply, padLo_apply]
  exact padSig_congr _ _ _ (by show 4 + (i 2).val = (i 2).val + 4; omega) (by show 2 + (i 3).val = (i 3).val + 2; omega)

theorem tapHi_v41 (x : Img) (i : S8x1x2048x2048.Idx) :
    val_main_v41 (F := Ideal) x i = padSig (Ideal.ofBits .f32 0x461C4000#32) x (i 0) ((i 2).val + 0) ((i 3).val + 2) := by
  rw [val_main_v41_apply, padHi_apply]
  exact padSig_congr _ _ _ (by show (i 2).val = (i 2).val + 0; omega) (by show 2 + (i 3).val = (i 3).val + 2; omega)

theorem tapHi_v42 (x : Img) (i : S8x1x2048x2048.Idx) :
    val_main_v42 (F := Ideal) x i = padSig (Ideal.ofBits .f32 0x461C4000#32) x (i 0) ((i 2).val + 1) ((i 3).val + 0) := by
  rw [val_main_v42_apply, padHi_apply]
  exact padSig_congr _ _ _ (by show 1 + (i 2).val = (i 2).val + 1; omega) (by show (i 3).val = (i 3).val + 0; omega)

theorem tapHi_v44 (x : Img) (i : S8x1x2048x2048.Idx) :
    val_main_v44 (F := Ideal) x i = padSig (Ideal.ofBits .f32 0x461C4000#32) x (i 0) ((i 2).val + 1) ((i 3).val + 1) := by
  rw [val_main_v44_apply, padHi_apply]
  exact padSig_congr _ _ _ (by show 1 + (i 2).val = (i 2).val + 1; omega) (by show 1 + (i 3).val = (i 3).val + 1; omega)

theorem tapHi_v46 (x : Img) (i : S8x1x2048x2048.Idx) :
    val_main_v46 (F := Ideal) x i = padSig (Ideal.ofBits .f32 0x461C4000#32) x (i 0) ((i 2).val + 1) ((i 3).val + 2) := by
  rw [val_main_v46_apply, padHi_apply]
  exact padSig_congr _ _ _ (by show 1 + (i 2).val = (i 2).val + 1; omega) (by show 2 + (i 3).val = (i 3).val + 2; omega)

theorem tapHi_v48 (x : Img) (i : S8x1x2048x2048.Idx) :
    val_main_v48 (F := Ideal) x i = padSig (Ideal.ofBits .f32 0x461C4000#32) x (i 0) ((i 2).val + 1) ((i 3).val + 3) := by
  rw [val_main_v48_apply, padHi_apply]
  exact padSig_congr _ _ _ (by show 1 + (i 2).val = (i 2).val + 1; omega) (by show 3 + (i 3).val = (i 3).val + 3; omega)

theorem tapHi_v50 (x : Img) (i : S8x1x2048x2048.Idx) :
    val_main_v50 (F := Ideal) x i = padSig (Ideal.ofBits .f32 0x461C4000#32) x (i 0) ((i 2).val + 1) ((i 3).val + 4) := by
  rw [val_main_v50_apply, padHi_apply]
  exact padSig_congr _ _ _ (by show 1 + (i 2).val = (i 2).val + 1; omega) (by show 4 + (i 3).val = (i 3).val + 4; omega)

theorem tapHi_v52 (x : Img) (i : S8x1x2048x2048.Idx) :
    val_main_v52 (F := Ideal) x i = padSig (Ideal.ofBits .f32 0x461C4000#32) x (i 0) ((i 2).val + 2) ((i 3).val + 0) := by
  rw [val_main_v52_apply, padHi_apply]
  exact padSig_congr _ _ _ (by show 2 + (i 2).val = (i 2).val + 2; omega) (by show (i 3).val = (i 3).val + 0; omega)

theorem tapHi_v54 (x : Img) (i : S8x1x2048x2048.Idx) :
    val_main_v54 (F := Ideal) x i = padSig (Ideal.ofBits .f32 0x461C4000#32) x (i 0) ((i 2).val + 2) ((i 3).val + 1) := by
  rw [val_main_v54_apply, padHi_apply]
  exact padSig_congr _ _ _ (by show 2 + (i 2).val = (i 2).val + 2; omega) (by show 1 + (i 3).val = (i 3).val + 1; omega)

theorem tapHi_v56 (x : Img) (i : S8x1x2048x2048.Idx) :
    val_main_v56 (F := Ideal) x i = padSig (Ideal.ofBits .f32 0x461C4000#32) x (i 0) ((i 2).val + 2) ((i 3).val + 2) := by
  rw [val_main_v56_apply, padHi_apply]
  exact padSig_congr _ _ _ (by show 2 + (i 2).val = (i 2).val + 2; omega) (by show 2 + (i 3).val = (i 3).val + 2; omega)

theorem tapHi_v58 (x : Img) (i : S8x1x2048x2048.Idx) :
    val_main_v58 (F := Ideal) x i = padSig (Ideal.ofBits .f32 0x461C4000#32) x (i 0) ((i 2).val + 2) ((i 3).val + 3) := by
  rw [val_main_v58_apply, padHi_apply]
  exact padSig_congr _ _ _ (by show 2 + (i 2).val = (i 2).val + 2; omega) (by show 3 + (i 3).val = (i 3).val + 3; omega)

theorem tapHi_v60 (x : Img) (i : S8x1x2048x2048.Idx) :
    val_main_v60 (F := Ideal) x i = padSig (Ideal.ofBits .f32 0x461C4000#32) x (i 0) ((i 2).val + 2) ((i 3).val + 4) := by
  rw [val_main_v60_apply, padHi_apply]
  exact padSig_congr _ _ _ (by show 2 + (i 2).val = (i 2).val + 2; omega) (by show 4 + (i 3).val = (i 3).val + 4; omega)

theorem tapHi_v62 (x : Img) (i : S8x1x2048x2048.Idx) :
    val_main_v62 (F := Ideal) x i = padSig (Ideal.ofBits .f32 0x461C4000#32) x (i 0) ((i 2).val + 3) ((i 3).val + 0) := by
  rw [val_main_v62_apply, padHi_apply]
  exact padSig_congr _ _ _ (by show 3 + (i 2).val = (i 2).val + 3; omega) (by show (i 3).val = (i 3).val + 0; omega)

theorem tapHi_v64 (x : Img) (i : S8x1x2048x2048.Idx) :
    val_main_v64 (F := Ideal) x i = padSig (Ideal.ofBits .f32 0x461C4000#32) x (i 0) ((i 2).val + 3) ((i 3).val + 1) := by
  rw [val_main_v64_apply, padHi_apply]
  exact padSig_congr _ _ _ (by show 3 + (i 2).val = (i 2).val + 3; omega) (by show 1 + (i 3).val = (i 3).val + 1; omega)

theorem tapHi_v66 (x : Img) (i : S8x1x2048x2048.Idx) :
    val_main_v66 (F := Ideal) x i = padSig (Ideal.ofBits .f32 0x461C4000#32) x (i 0) ((i 2).val + 3) ((i 3).val + 2) := by
  rw [val_main_v66_apply, padHi_apply]
  exact padSig_congr _ _ _ (by show 3 + (i 2).val = (i 2).val + 3; omega) (by show 2 + (i 3).val = (i 3).val + 2; omega)

theorem tapHi_v68 (x : Img) (i : S8x1x2048x2048.Idx) :
    val_main_v68 (F := Ideal) x i = padSig (Ideal.ofBits .f32 0x461C4000#32) x (i 0) ((i 2).val + 3) ((i 3).val + 3) := by
  rw [val_main_v68_apply, padHi_apply]
  exact padSig_congr _ _ _ (by show 3 + (i 2).val = (i 2).val + 3; omega) (by show 3 + (i 3).val = (i 3).val + 3; omega)

theorem tapHi_v70 (x : Img) (i : S8x1x2048x2048.Idx) :
    val_main_v70 (F := Ideal) x i = padSig (Ideal.ofBits .f32 0x461C4000#32) x (i 0) ((i 2).val + 3) ((i 3).val + 4) := by
  rw [val_main_v70_apply, padHi_apply]
  exact padSig_congr _ _ _ (by show 3 + (i 2).val = (i 2).val + 3; omega) (by show 4 + (i 3).val = (i 3).val + 4; omega)

theorem tapHi_v72 (x : Img) (i : S8x1x2048x2048.Idx) :
    val_main_v72 (F := Ideal) x i = padSig (Ideal.ofBits .f32 0x461C4000#32) x (i 0) ((i 2).val + 4) ((i 3).val + 2) := by
  rw [val_main_v72_apply, padHi_apply]
  exact padSig_congr _ _ _ (by show 4 + (i 2).val = (i 2).val + 4; omega) (by show 2 + (i 3).val = (i 3).val + 2; omega)

/-- The dilation: the left-to-right maximum of the 17 slices of the plane padded with −10⁴. -/
theorem dil_apply (x : Img) (i : S8x1x2048x2048.Idx) :
    val_main_v39 (F := Ideal) x i
      = tapFold max (fun a c => padSig (Ideal.ofBits .f32 0xC61C4000#32) x (i 0) ((i 2).val + a) ((i 3).val + c)) := by
  rw [
    val_main_v39_apply, val_main_v37_apply, val_main_v35_apply, val_main_v33_apply, val_main_v31_apply,
    val_main_v29_apply, val_main_v27_apply, val_main_v25_apply, val_main_v23_apply, val_main_v21_apply,
    val_main_v19_apply, val_main_v17_apply, val_main_v15_apply, val_main_v13_apply, val_main_v11_apply,
    val_main_v9_apply,
    tapLo_v7, tapLo_v8, tapLo_v10, tapLo_v12, tapLo_v14, tapLo_v16, tapLo_v18, tapLo_v20, tapLo_v22, tapLo_v24,
    tapLo_v26, tapLo_v28, tapLo_v30, tapLo_v32, tapLo_v34, tapLo_v36, tapLo_v38]
  rfl

/-- The erosion: the left-to-right minimum of the 17 slices of the plane padded with +10⁴. -/
theorem ero_apply (x : Img) (i : S8x1x2048x2048.Idx) :
    val_main_v73 (F := Ideal) x i
      = tapFold min (fun a c => padSig (Ideal.ofBits .f32 0x461C4000#32) x (i 0) ((i 2).val + a) ((i 3).val + c)) := by
  rw [
    val_main_v73_apply, val_main_v71_apply, val_main_v69_apply, val_main_v67_apply, val_main_v65_apply,
    val_main_v63_apply, val_main_v61_apply, val_main_v59_apply, val_main_v57_apply, val_main_v55_apply,
    val_main_v53_apply, val_main_v51_apply, val_main_v49_apply, val_main_v47_apply, val_main_v45_apply,
    val_main_v43_apply,
    tapHi_v41, tapHi_v42, tapHi_v44, tapHi_v46, tapHi_v48, tapHi_v50, tapHi_v52, tapHi_v54, tapHi_v56, tapHi_v58,
    tapHi_v60, tapHi_v62, tapHi_v64, tapHi_v66, tapHi_v68, tapHi_v70, tapHi_v72]
  rfl

/-- The reference program's result is the thresholded morphological gradient. -/
theorem ref_is_G (x : Img) : val_main_v78 (F := Ideal) x = G x := by
  funext j
  rw [val_main_v78_apply, val_main_v77_apply, val_main_v76_apply, val_main_call2_v0_apply, val_main_cst_4_apply,
    val_main_call2_v1_apply, val_main_cst_5_apply, val_main_v75_apply, val_main_cst_3_apply, val_main_v74_apply,
    dil_apply, ero_apply]
  rfl

end Cert.Morph.Ref

end
-- ==== Proof.lean ====
/-
  The thresholded morphological gradient of a sigmoid image, computed band by band, equals the one computed over
  the whole padded image.

  Both programs apply the sigmoid to an image of 8 planes of 2048 × 2048 numbers, take over the 5 × 5 ellipse the
  maximum of the plane padded with −10⁴ and the minimum of the plane padded with +10⁴, subtract, and write 1 where the
  difference exceeds 1/2 and 0 elsewhere. The reference pads whole planes and slides whole planes. The kernel pads
  only the columns (with zeros, which it never uses), walks an 8 × 8 grid of (plane, band of 256 rows), reads at each
  point the band and the two rows above and below it out of neighbouring 8-row strips, and decides by the position in
  the image where the padding value stands instead of the sigmoid. Position by position the two padded planes are the
  same function of the image (`Cert.Morph.padSig`), the offsets are folded in the same order, and so the two results
  are the same function `Cert.Morph.G` of the image; no law of arithmetic beyond that is used, and the finiteness of
  the input is not needed.

  The kernel's run — it terminates, faults nowhere and leaves the image unchanged — is proved once for any reading of
  the floats and cited at the word level and at the extended reals; the reference's run is its generated run. The
  idealization rewrote nothing, so that conjunct is trivial.
-/
import proofs.«119502_j48601849922239_1_alg».proof.Defs
import proofs.«119502_j48601849922239_1_alg».proof.Proof.Gen.Kernel
import proofs.«119502_j48601849922239_1_alg».proof.Proof.Gen.KernelIdeal
import proofs.«119502_j48601849922239_1_alg».proof.Proof.Gen.ReferenceIdeal
import proofs.«119502_j48601849922239_1_alg».proof.Proof.Gen.ReferenceIdeal.Run
import proofs.«119502_j48601849922239_1_alg».proof.Proof.Gen.ReferenceIdeal.Read
import proofs.«119502_j48601849922239_1_alg».proof.Proof.Gen.Pre_finite_inputs
import proofs.«119502_j48601849922239_1_alg».proof.Proof.KernelRun
import proofs.«119502_j48601849922239_1_alg».proof.Proof.KernelIdealValue
import proofs.«119502_j48601849922239_1_alg».proof.Proof.RefIsG

noncomputable section

namespace Cert.Proof

open Idealize.ShloMosaic Idealize.ShloMosaic.TcCoe Idealize.SL.Sem

/-- The word-level kernel runs to the end and leaves the image unchanged. -/
theorem frame_kernel : Cert.frame_Kernel := fun m ρ _ => Cert.Kernel.Hand.frame m ρ

/-- So does the kernel read over the extended reals. -/
theorem frame_kernelIdeal : Cert.frame_KernelIdeal := fun m ρ _ => Cert.KernelIdeal.Hand.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the thresholded gradient `G` of the image they were given. -/
theorem algebraic : Cert.algebraic_KernelIdeal_ReferenceIdeal := by
  intro m ρ m' ρ' _ hagree
  refine ⟨fun c => Cert.Morph.G (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq, Cert.Morph.Ref.ref_is_G, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
